-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x64 : Shape := ⟨2, ![32768, 64]⟩
abbrev S1x2145 : Shape := ⟨2, ![1, 2145]⟩
abbrev S1 : Shape := ⟨1, ![1]⟩
abbrev S_ : Shape := ⟨0, ![]⟩

class Facts : Prop where
  bcast_S_S32768x64 : S_.BroadcastsInDim S32768x64 (![] : Fin 0 → Fin S32768x64.rank)
  reducesTo_S32768x64_S_d0_1 : S32768x64.ReducesTo [0, 1] S_
  h_S_ : 0 < S_.numel
  bcast_S_S1x2145 : S_.BroadcastsInDim S1x2145 (![] : Fin 0 → Fin S1x2145.rank)
  reducesTo_S1x2145_S_d0_1 : S1x2145.ReducesTo [0, 1] S_
  bcast_S_S1 : S_.BroadcastsInDim S1 (![] : Fin 0 → Fin S1.rank)
  reducesTo_S1_S_d0 : S1.ReducesTo [0] S_

variable [Facts]

def fn {F : FTy → Type} [FloatOps F] (main_arg0 : FVec F S32768x64 .f32) (main_arg1 : FVec F S1x2145 .f32) (main_arg2 : FVec F S1 .f32) : IVec S_ 1 :=
  let main_v0 : FVec F S32768x64 .f32 := Host.absf main_arg0
  let main_cst : FVec F S_ .f32 := constant S_ .f32 0x7F800000#32
  let main_v1 : FVec F S32768x64 .f32 := broadcastInDim S32768x64 ![] bcast_S_S32768x64 main_cst
  let main_v2 : IVec S32768x64 1 := cmpf .olt main_v0 main_v1
  let main_c : IVec S_ 1 := constantI S_ 1 1#1
  let main_v3 : IVec S_ 1 := (fun x v => Host.reduce IntOp.andi x v reducesTo_S32768x64_S_d0_1 h_S_) main_v2 main_c
  let main_v4 : FVec F S1x2145 .f32 := Host.absf main_arg1
  let main_cst_0 : FVec F S_ .f32 := constant S_ .f32 0x7F800000#32
  let main_v5 : FVec F S1x2145 .f32 := broadcastInDim S1x2145 ![] bcast_S_S1x2145 main_cst_0
  let main_v6 : IVec S1x2145 1 := cmpf .olt main_v4 main_v5
  let main_c_1 : IVec S_ 1 := constantI S_ 1 1#1
  let main_v7 : IVec S_ 1 := (fun x v => Host.reduce IntOp.andi x v reducesTo_S1x2145_S_d0_1 h_S_) main_v6 main_c_1
  let main_v8 : IVec S_ 1 := andi main_v3 main_v7
  let main_v9 : FVec F S1 .f32 := Host.absf main_arg2
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  main_v13
-- ==== Kernel.lean ====
abbrev S32768x64 : Shape := ⟨2, ![32768, 64]⟩
abbrev S1x2145 : Shape := ⟨2, ![1, 2145]⟩
abbrev S1 : Shape := ⟨1, ![1]⟩
abbrev S2080 : Shape := ⟨1, ![2080]⟩
abbrev S2145 : Shape := ⟨1, ![2145]⟩
abbrev S_ : Shape := ⟨0, ![]⟩
abbrev S64 : Shape := ⟨1, ![64]⟩
abbrev S64x64 : Shape := ⟨2, ![64, 64]⟩
abbrev S2080x1 : Shape := ⟨2, ![2080, 1]⟩
abbrev S2080x2 : Shape := ⟨2, ![2080, 2]⟩
abbrev S64x128 : Shape := ⟨2, ![64, 128]⟩
abbrev S1x1 : Shape := ⟨2, ![1, 1]⟩
abbrev S32768x1 : Shape := ⟨2, ![32768, 1]⟩
abbrev S4096x64 : Shape := ⟨2, ![4096, 64]⟩
abbrev S4096x1 : Shape := ⟨2, ![4096, 1]⟩
abbrev S4096x128 : Shape := ⟨2, ![4096, 128]⟩
abbrev S4096 : Shape := ⟨1, ![4096]⟩
abbrev S32768 : Shape := ⟨1, ![32768]⟩

abbrev nBuf : Space → Nat
  | .hbm => 44
  | .vmem => 6
  | .smem => 0
  | _ => 0

abbrev bufTy : (tb : Table) → Fin (tcTables nBuf tb) → BufTy
  | .hbm, ⟨0, _⟩ => ⟨S32768x64, .f32⟩
  | .hbm, ⟨1, _⟩ => ⟨S1x2145, .f32⟩
  | .hbm, ⟨2, _⟩ => ⟨S1, .f32⟩
  | .hbm, ⟨3, _⟩ => ⟨S2080, .i32⟩
  | .hbm, ⟨4, _⟩ => ⟨S2080, .i1⟩
  | .hbm, ⟨5, _⟩ => ⟨S2080, .i32⟩
  | .hbm, ⟨6, _⟩ => ⟨S2080, .i1⟩
  | .hbm, ⟨7, _⟩ => ⟨S2145, .f32⟩
  | .hbm, ⟨8, _⟩ => ⟨S1, .f32⟩
  | .hbm, ⟨9, _⟩ => ⟨S_, .f32⟩
  | .hbm, ⟨10, _⟩ => ⟨S64, .f32⟩
  | .hbm, ⟨11, _⟩ => ⟨S2080, .f32⟩
  | .hbm, ⟨12, _⟩ => ⟨S_, .f32⟩
  | .hbm, ⟨13, _⟩ => ⟨S64x64, .f32⟩
  | .hbm, ⟨14, _⟩ => ⟨S_, .i32⟩
  | .hbm, ⟨15, _⟩ => ⟨S2080, .i32⟩
  | .hbm, ⟨16, _⟩ => ⟨S2080, .i32⟩
  | .hbm, ⟨17, _⟩ => ⟨S2080, .i32⟩
  | .hbm, ⟨18, _⟩ => ⟨S_, .i32⟩
  | .hbm, ⟨19, _⟩ => ⟨S2080, .i32⟩
  | .hbm, ⟨20, _⟩ => ⟨S2080, .i32⟩
  | .hbm, ⟨21, _⟩ => ⟨S2080, .i32⟩
  | .hbm, ⟨22, _⟩ => ⟨S2080x1, .i32⟩
  | .hbm, ⟨23, _⟩ => ⟨S2080x1, .i32⟩
  | .hbm, ⟨24, _⟩ => ⟨S2080x2, .i32⟩
  | .hbm, ⟨25, _⟩ => ⟨S64x64, .f32⟩
  | .hbm, ⟨26, _⟩ => ⟨S64x64, .f32⟩
  | .hbm, ⟨27, _⟩ => ⟨S64x64, .f32⟩
  | .hbm, ⟨28, _⟩ => ⟨S_, .f32⟩
  | .hbm, ⟨29, _⟩ => ⟨S64x64, .f32⟩
  | .hbm, ⟨30, _⟩ => ⟨S64x64, .f32⟩
  | .hbm, ⟨31, _⟩ => ⟨S_, .f32⟩
  | .hbm, ⟨32, _⟩ => ⟨S64x128, .f32⟩
  | .hbm, ⟨33, _⟩ => ⟨S_, .i32⟩
  | .hbm, ⟨34, _⟩ => ⟨S1, .i32⟩
  | .hbm, ⟨35, _⟩ => ⟨S64x128, .f32⟩
  | .hbm, ⟨36, _⟩ => ⟨S_, .i32⟩
  | .hbm, ⟨37, _⟩ => ⟨S1, .i32⟩
  | .hbm, ⟨38, _⟩ => ⟨S64x128, .f32⟩
  | .hbm, ⟨39, _⟩ => ⟨S_, .f32⟩
  | .hbm, ⟨40, _⟩ => ⟨S_, .f32⟩
  | .hbm, ⟨41, _⟩ => ⟨S1x1, .f32⟩
  | .hbm, ⟨42, _⟩ => ⟨S32768x1, .f32⟩
  | .hbm, ⟨43, _⟩ => ⟨S32768, .f32⟩
  | .local _ .vmem, ⟨0, _⟩ => ⟨S4096x64, .f32⟩
  | .local _ .vmem, ⟨1, _⟩ => ⟨S4096x64, .f32⟩
  | .local _ .vmem, ⟨2, _⟩ => ⟨S64x128, .f32⟩
  | .local _ .vmem, ⟨3, _⟩ => ⟨S1x1, .f32⟩
  | .local _ .vmem, ⟨4, _⟩ => ⟨S4096x1, .f32⟩
  | .local _ .vmem, ⟨5, _⟩ => ⟨S4096x1, .f32⟩
  | _, _ => ⟨S32768x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_c_1 : Ref sig .tc := ⟨.hbm, 5, rfl⟩
abbrev main_c_2 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_c_3 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_4 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_c_7 : Ref sig .tc := ⟨.hbm, 33, rfl⟩
abbrev main_v21 : Ref sig .tc := ⟨.hbm, 34, rfl⟩
abbrev main_v22 : Ref sig .tc := ⟨.hbm, 35, rfl⟩
abbrev main_c_8 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S1x2145_S2145 : S1x2145.ShapeCasts S2145
  slices_S2145_S1_0 : S2145.Slices ![0] S1
  shapeCasts_S1_S_ : S1.ShapeCasts S_
  slices_S2145_S64_1 : S2145.Slices ![1] S64
  slices_S2145_S2080_65 : S2145.Slices ![65] S2080
  bcast_S_S64x64 : S_.BroadcastsInDim S64x64 (![] : Fin 0 → Fin S64x64.rank)
  bcast_S_S2080 : S_.BroadcastsInDim S2080 (![] : Fin 0 → Fin S2080.rank)
  bcast_S2080_S2080x1_0 : S2080.BroadcastsInDim S2080x1 (![0] : Fin 1 → Fin S2080x1.rank)
  concatenates_S2080x1_S2080x1_S2080x2_d1 : Shape.Concatenates [S2080x1, S2080x1] S2080x2 1
  transposes_S64x64_S64x64_1_0 : S64x64.Transposes [1, 0] S64x64
  bcast_S_S64x128 : S_.BroadcastsInDim S64x128 (![] : Fin 0 → Fin S64x128.rank)
  bcast_S_S1 : S_.BroadcastsInDim S1 (![] : Fin 0 → Fin S1.rank)
  shapeCasts_S_S1x1 : S_.ShapeCasts S1x1
  inb_S4096x64_S4096x64_0_0 : ∀ a, (![0, 0] : Fin 2 → Nat) a + S4096x64.size a ≤ S4096x64.size a
  h_S4096x64 : 0 < S4096x64.numel
  inb_S64x128_S64x128_0_0 : ∀ a, (![0, 0] : Fin 2 → Nat) a + S64x128.size a ≤ S64x128.size a
  h_S64x128 : 0 < S64x128.numel
  shapeCasts_S64x128_S64x128 : S64x128.ShapeCasts S64x128
  slices_S4096x128_o0_0_S4096x64 : S4096x128.Slices ![0, 0] S4096x64
  slices_S4096x128_o0_64_S4096x1 : S4096x128.Slices ![0, 64] S4096x1
  reduces_S4096x64_S4096 : S4096x64.Reduces [1] S4096
  shapeCasts_S4096_S4096x1 : S4096.ShapeCasts S4096x1
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S4096x1_S4096x1_0_0 : ∀ a, (![0, 0] : Fin 2 → Nat) a + S4096x1.size a ≤ S4096x1.size a
  h_S4096x1 : 0 < S4096x1.numel
  shapeCasts_S32768x1_S32768 : S32768x1.ShapeCasts S32768
  scatter_S64x64_S2080x2_S2080_n_01_01_1_wf : ScatterDims.WF S64x64 S2080x2 S2080 [] [0, 1] [0, 1] 1
  scatter_S64x128_S1_S64x64_01_n_1_0_wf : ScatterDims.WF S64x128 S1 S64x64 [0, 1] [] [1] 0
  scatter_S64x128_S1_S64_0_1_1_0_wf : ScatterDims.WF S64x128 S1 S64 [0] [1] [1] 0
  dot_S4096x64_S64x128_S4096x128_1_0_0_1_n_n_wf : DotDims.WF S4096x64 S64x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x64.size a ≤ S32768x64.size a
  hwx0_0 : ∀ i : grid0.Coords, EltTy.bits .f32 = 32 ∨ (Rect.block (s := S32768x64) S4096x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x1.size a ≤ S32768x1.size a
  hwx0_3 : ∀ i : grid0.Coords, EltTy.bits .f32 = 32 ∨ (Rect.block (s := S32768x1) S4096x1.size (cc0_transform_3 i) (hinb0_3 i)).WholeWords (EltTy.packing .f32)

variable [Facts₀]

def scatter_S64x64_S2080x2_S2080_n_01_01_1 : ScatterDims S64x64 S2080x2 S2080 where
  updateWindowDims := []
  insertedWindowDims := [0, 1]
  scatterDimsToOperandDims := [0, 1]
  indexVectorDim := 1
  wf := scatter_S64x64_S2080x2_S2080_n_01_01_1_wf
def scatter_S64x128_S1_S64x64_01_n_1_0 : ScatterDims S64x128 S1 S64x64 where
  updateWindowDims := [0, 1]
  insertedWindowDims := []
  scatterDimsToOperandDims := [1]
  indexVectorDim := 0
  wf := scatter_S64x128_S1_S64x64_01_n_1_0_wf
def scatter_S64x128_S1_S64_0_1_1_0 : ScatterDims S64x128 S1 S64 where
  updateWindowDims := [0]
  insertedWindowDims := [1]
  scatterDimsToOperandDims := [1]
  indexVectorDim := 0
  wf := scatter_S64x128_S1_S64_0_1_1_0_wf
def dot_S4096x64_S64x128_S4096x128_1_0_0_1_n_n : DotDims S4096x64 S64x128 S4096x128 where
  lhsContracting := [1]
  rhsContracting := [0]
  lhsNonContracting := [0]
  rhsNonContracting := [1]
  lhsBatch := []
  rhsBatch := []
  wf := dot_S4096x64_S64x128_S4096x128_1_0_0_1_n_n_wf

abbrev win0_0 : Pipeline.Window sig grid0 :=
  Pipeline.Window.ofSpec (Memref.whole main_arg0) S4096x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S1x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v28) S4096x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32768x64 : Shape := ⟨2, ![32768, 64]⟩
abbrev S1x2145 : Shape := ⟨2, ![1, 2145]⟩
abbrev S1 : Shape := ⟨1, ![1]⟩
abbrev S2080 : Shape := ⟨1, ![2080]⟩
abbrev S_ : Shape := ⟨0, ![]⟩
abbrev S32768x1 : Shape := ⟨2, ![32768, 1]⟩
abbrev S2080x1 : Shape := ⟨2, ![2080, 1]⟩
abbrev S32768x2080 : Shape := ⟨2, ![32768, 2080]⟩
abbrev S32768x2145 : Shape := ⟨2, ![32768, 2145]⟩
abbrev S2145x1 : Shape := ⟨2, ![2145, 1]⟩
abbrev S1x1 : Shape := ⟨2, ![1, 1]⟩
abbrev S32768 : Shape := ⟨1, ![32768]⟩

abbrev nBuf : Space → Nat
  | .hbm => 29
  | .vmem => 0
  | .smem => 0
  | _ => 0

abbrev bufTy : (tb : Table) → Fin (tcTables nBuf tb) → BufTy
  | .hbm, ⟨0, _⟩ => ⟨S32768x64, .f32⟩
  | .hbm, ⟨1, _⟩ => ⟨S1x2145, .f32⟩
  | .hbm, ⟨2, _⟩ => ⟨S1, .f32⟩
  | .hbm, ⟨3, _⟩ => ⟨S2080, .i32⟩
  | .hbm, ⟨4, _⟩ => ⟨S2080, .i1⟩
  | .hbm, ⟨5, _⟩ => ⟨S2080, .i32⟩
  | .hbm, ⟨6, _⟩ => ⟨S2080, .i1⟩
  | .hbm, ⟨7, _⟩ => ⟨S_, .f32⟩
  | .hbm, ⟨8, _⟩ => ⟨S32768x1, .f32⟩
  | .hbm, ⟨9, _⟩ => ⟨S_, .i32⟩
  | .hbm, ⟨10, _⟩ => ⟨S2080, .i32⟩
  | .hbm, ⟨11, _⟩ => ⟨S2080, .i32⟩
  | .hbm, ⟨12, _⟩ => ⟨S2080, .i32⟩
  | .hbm, ⟨13, _⟩ => ⟨S2080x1, .i32⟩
  | .hbm, ⟨14, _⟩ => ⟨S32768x2080, .f32⟩
  | .hbm, ⟨15, _⟩ => ⟨S_, .i32⟩
  | .hbm, ⟨16, _⟩ => ⟨S2080, .i32⟩
  | .hbm, ⟨17, _⟩ => ⟨S2080, .i32⟩
  | .hbm, ⟨18, _⟩ => ⟨S2080, .i32⟩
  | .hbm, ⟨19, _⟩ => ⟨S2080x1, .i32⟩
  | .hbm, ⟨20, _⟩ => ⟨S32768x2080, .f32⟩
  | .hbm, ⟨21, _⟩ => ⟨S32768x2080, .f32⟩
  | .hbm, ⟨22, _⟩ => ⟨S32768x2145, .f32⟩
  | .hbm, ⟨23, _⟩ => ⟨S2145x1, .f32⟩
  | .hbm, ⟨24, _⟩ => ⟨S32768x1, .f32⟩
  | .hbm, ⟨25, _⟩ => ⟨S1x1, .f32⟩
  | .hbm, ⟨26, _⟩ => ⟨S32768x1, .f32⟩
  | .hbm, ⟨27, _⟩ => ⟨S32768x1, .f32⟩
  | .hbm, ⟨28, _⟩ => ⟨S32768, .f32⟩
  | _, _ => ⟨S32768x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_c_1 : Ref sig .tc := ⟨.hbm, 5, rfl⟩
abbrev main_c_2 : Ref sig .tc := ⟨.hbm, 6, rfl⟩
abbrev main_cst : Ref sig .tc := ⟨.hbm, 7, rfl⟩
abbrev main_v0 : Ref sig .tc := ⟨.hbm, 8, rfl⟩
abbrev main_c_3 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c_4 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩

abbrev nD : Nat := 1
abbrev τ : Topo := Topo.v7x

variable {F : FTy → Type} [FloatOps F]

class Facts₀ : Prop where
  bcast_S_S32768x1 : S_.BroadcastsInDim S32768x1 (![] : Fin 0 → Fin S32768x1.rank)
  bcast_S_S2080 : S_.BroadcastsInDim S2080 (![] : Fin 0 → Fin S2080.rank)
  bcast_S2080_S2080x1_0 : S2080.BroadcastsInDim S2080x1 (![0] : Fin 1 → Fin S2080x1.rank)
  concatenates_S32768x1_S32768x64_S32768x2080_S32768x2145_d1 : Shape.Concatenates [S32768x1, S32768x64, S32768x2080] S32768x2145 1
  transposes_S1x2145_S2145x1_1_0 : S1x2145.Transposes [1, 0] S2145x1
  bcast_S1_S1x1_1 : S1.BroadcastsInDim S1x1 (![1] : Fin 1 → Fin S1x1.rank)
  bcast_S1x1_S32768x1_0_1 : S1x1.BroadcastsInDim S32768x1 (![0, 1] : Fin 2 → Fin S32768x1.rank)
  shapeCasts_S32768x1_S32768 : S32768x1.ShapeCasts S32768
  gather_S32768x64_S2080x1_S32768x2080_0_1_n_n_1_1_327681_wf : GatherDims.WF S32768x64 S2080x1 S32768x2080 [0] [1] [] [1] [] 1 ![32768, 1]
  dot_S32768x2145_S2145x1_S32768x1_1_0_0_1_n_n_wf : DotDims.WF S32768x2145 S2145x1 S32768x1 [1] [0] [0] [1] [] []

variable [Facts₀]

def gather_S32768x64_S2080x1_S32768x2080_0_1_n_n_1_1_327681 : GatherDims S32768x64 S2080x1 S32768x2080 where
  offsetDims := [0]
  collapsedSliceDims := [1]
  operandBatchingDims := []
  startIndicesBatchingDims := []
  startIndexMap := [1]
  indexVectorDim := 1
  sliceSizes := ![32768, 1]
  wf := gather_S32768x64_S2080x1_S32768x2080_0_1_n_n_1_1_327681_wf
def dot_S32768x2145_S2145x1_S32768x1_1_0_0_1_n_n : DotDims S32768x2145 S2145x1 S32768x1 where
  lhsContracting := [1]
  rhsContracting := [0]
  lhsNonContracting := [0]
  rhsNonContracting := [1]
  lhsBatch := []
  rhsBatch := []
  wf := dot_S32768x2145_S2145x1_S32768x1_1_0_0_1_n_n_wf

class Facts : Prop extends Facts₀ where

variable [Facts]
-- ==== Proof.LibPlainMatmul.lean ====
import Idealize.ShloMosaic.Lib.ValueIdx
import Idealize.ShloMosaic.Lib.StackMember
import Idealize.ShloMosaic.PureOps.Ideal.Laws

/-! # A plain matrix product into zero, read at an index

For an m×k matrix A and a k×n matrix B, the product that contracts A's second axis with B's first, with no batch
axis, has at row a and column b the entry  ∑ c, A(a, c) · B(c, b).  At the ideal values this holds of the matrix
unit's product accumulated into the zero splat exactly as it holds of the host's product: the accumulator
contributes the extended real 0, and neither rounds nor orders the sum. The host's form is the library's
(`StackMember.dotGeneral_plain_apply`); the matrix unit's form is derived from it here, since both read at an index
as the same sum over the contraction index. -/

noncomputable section

namespace Cert.LibPlainMatmul

open Idealize.ShloMosaic Idealize.ShloMosaic.ValueIdx

/-- The matrix unit's plain product into the zero splat, at row `a` and column `b`, is the sum over the contracted
    coordinate of the products of the entries. At the ideal values. -/
theorem matmul_plain_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    FloatOps.matmul (DotDims.plain m k n) prec A B (constant (F := Ideal) ⟨2, ![m, n]⟩ .f32 0x00000000#32) (ix2 a b)
      = ∑ c : Fin k, A (ix2 a c) * B (ix2 c b) :=
  (Ideal.matmul_constant_zero_apply (DotDims.plain m k n) prec A B (ix2 a b)).trans
    ((Ideal.dotGeneral_apply (DotDims.plain m k n) prec .single A B (ix2 a b)).symm.trans
      (StackMember.dotGeneral_plain_apply prec A B a b))

/-- The host's plain product at row `a` and column `b`, restated beside it. -/
theorem dotGeneral_plain_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    Host.dotGeneral (DotDims.plain m k n) prec A B (ix2 a b) = ∑ c : Fin k, A (ix2 a c) * B (ix2 c b) :=
  StackMember.dotGeneral_plain_apply prec A B a b

end Cert.LibPlainMatmul

end
-- ==== Proof.LibKeepdims.lean ====
/-
  The "keepdims" column forms of two layout operations, read at an index given by its coordinates.

  A length-a vector viewed as an a × 1 column reads, at (i, ·), the vector at i; an a × 1 column broadcast to
  a × b reads, at (p, c), the column at (p, 0). (The third form a row sum with keepdims meets, the column
  transposed to a 1 × a row, is the library's matrix transpose at b = 1.)
-/
import Idealize.ShloMosaic.Lib.Pipeline.Value
import Idealize.ShloMosaic.Lib.ValueIdx

noncomputable section

namespace Cert.LibKeepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims

end
-- ==== Proof.KernSpec.lean ====
/-
  What the kernel computes for one row of the batch, as a function of that row x (64 numbers), of the folded weight
  matrix wc (64 × 128: columns 0…63 the symmetrised quadratic weights, column 64 the linear weights) and of the folded
  bias:  x · wc[:, 64]  +  ∑_c (x · wc[:, c]) · x_c  +  bias.
-/
import Idealize.ShloMosaic.PureOps.Ideal

noncomputable section

namespace Cert.Poly

/-- The kernel's value on the row x. -/
def kernVal (x : Fin 64 → EReal) (wc : Fin 64 → Fin 128 → EReal) (bias : EReal) : EReal :=
  ((∑ k : Fin 64, x k * wc k (64 : Fin 128))
    + ∑ c : Fin 64, (∑ k : Fin 64, x k * wc k (Fin.castLE (by decide) c)) * x c) + bias

end Cert.Poly

end
-- ==== Proof.KernelPay.lean ====
/-
  The kernel body's stored value at one element.

  The body multiplies its block of rows x (4096 × 64) by the folded weight matrix wc (64 × 128), takes columns 0…63 of
  the product (x · M), multiplies them elementwise by x and sums along each row (the quadratic form xᵀ M x), adds column
  64 of the product (the linear term) and the folded bias.  At row r this is the row value of KernSpec on row r of x.
-/
import proofs.«159901_j3204045603237_1_alg».proof.Proof.Gen.KernelIdeal.Skeleton
import Idealize.ShloMosaic.PureOps.Ideal.Laws
import Idealize.ShloMosaic.Lib.ValueIdx
import Idealize.ShloMosaic.Lib.Pipeline.Value
import proofs.«159901_j3204045603237_1_alg».proof.Proof.LibPlainMatmul
import proofs.«159901_j3204045603237_1_alg».proof.Proof.LibKeepdims
import proofs.«159901_j3204045603237_1_alg».proof.Proof.KernSpec

noncomputable section

namespace Cert.KernelIdeal.Pay

open Cert.KernelIdeal Cert.KernelIdeal.Gen Idealize.ShloMosaic Idealize.ShloMosaic.ValueIdx

/-- The source index over row r with coordinate k on the summed axis is (r, k). -/
theorem lift_row (h : S4096x64.Reduces [(1 : Fin 2)] S4096) (r : Fin 4096) (k : Fin (S4096x64.size 1)) :
    h.lift (ix1 r) k = ix2 r k := by
  funext c
  refine Fin.ext ?_
  show Shape.Reduces.liftVal h (ix1 r) k.val c = (ix2 r k c).val
  unfold Shape.Reduces.liftVal
  match c with
  | ⟨0, _⟩ => rfl
  | ⟨1, _⟩ => rfl

/-- The lane sum of a 4096 × 64 block at row r. -/
theorem rowsum_apply (src : FVec Ideal S4096x64 .f32) (r : Fin 4096) :
    multiReduction (F := Ideal) .add [1] S4096 src 0x00000000#32 reduces_S4096x64_S4096 (.inl rfl) rfl (ix1 r)
      = ∑ c : Fin 64, src (ix2 r c) := by
  refine (Ideal.multiReduction_add_single src 0x00000000#32 reduces_S4096x64_S4096 (.inl rfl) rfl (ix1 r)).trans ?_
  exact Finset.sum_congr rfl fun k _ => congrArg src (lift_row _ r k)

/-- The matrix product of the block by the weight matrix at (r, c). -/
theorem mm_apply (x0 : FVec Ideal S4096x64 .f32) (x1 : FVec Ideal S64x128 .f32) (r : Fin 4096) (c : Fin 128) :
    matmul (F := Ideal) dot_S4096x64_S64x128_S4096x128_1_0_0_1_n_n (some .fp32) x0
        (shapeCast S64x128 x1 shapeCasts_S64x128_S64x128) (constant (F := Ideal) S4096x128 .f32 0x00000000#32) (ix2 r c)
      = ∑ k : Fin 64, x0 (ix2 r k) * x1 (ix2 k c) := by
  rw [shapeCast_self]
  exact Cert.LibPlainMatmul.matmul_plain_apply (some .fp32) x0 x1 r c

/-- THE STORED VALUE at row r of the block: the row value of that row. -/
theorem pay_apply (x0 : Vec Ideal S4096x64 .f32) (x1 : Vec Ideal S64x128 .f32) (x2 : Vec Ideal S1x1 .f32)
    (r : Fin 4096) (u : Fin 1) :
    k0_pay1 (F := Ideal) x0 x1 x2 (ix2 r u)
      = Cert.Poly.kernVal (fun k => x0 (ix2 r k)) (fun k c => x1 (ix2 k c)) (x2 (ix2 (0 : Fin 1) (0 : Fin 1))) := by
  unfold k0_pay1 Cert.Poly.kernVal
  dsimp only
  rw [addf_apply, addf_apply]
  refine congrArg₂ (· + ·) (congrArg₂ (· + ·) ?_ ?_) ?_
  · -- the linear term: column 64 of the product
    refine (extractStridedSlice_apply _ _ _ (ix2 r u) (ix2 r (64 : Fin 128)) fun a => ?_).trans (mm_apply x0 x1 r 64)
    match a with
    | ⟨0, _⟩ => show r.val = 0 + r.val; omega
    | ⟨1, _⟩ => show (64 : ℕ) = 64 + u.val; omega
  · -- the quadratic form: the row sum of (x · M) ∘ x
    refine (Cert.LibKeepdims.shapeCast_a_a1_apply _ _ r u).trans ?_
    refine (rowsum_apply _ r).trans ?_
    refine Finset.sum_congr rfl fun c _ => ?_
    rw [mulf_apply]
    refine congrArg (· * x0 (ix2 r c)) ?_
    refine (extractStridedSlice_apply _ _ _ (ix2 r c) (ix2 r (Fin.castLE (by decide) c)) fun a => ?_).trans
      (mm_apply x0 x1 r (Fin.castLE (by decide) c))
    match a with
    | ⟨0, _⟩ => show r.val = 0 + r.val; omega
    | ⟨1, _⟩ => show c.val = 0 + c.val; omega
  · -- the bias: the one element of its block, splat
    show x2 _ = x2 _
    exact congrArg x2 (funext fun a => Fin.ext (by match a with | ⟨0, _⟩ => rfl | ⟨1, _⟩ => rfl))

end Cert.KernelIdeal.Pay

end
-- ==== Proof.KernelHost.lean ====
/-
  The two arrays the host prepares for the kernel, as functions of the arguments.

  Before the call the program slices the weight row w (2145 numbers) into the bias weight w_0, the linear weights
  w_1 … w_64 and the quadratic weights w_65 … w_2144; scatters the quadratic weights into a zero 64 × 64 matrix at the
  pairs (I k, J k); symmetrises, (U + Uᵀ) · ½; writes that into columns 0 … 63 of a zero 64 × 128 matrix and the linear
  weights into column 64; and folds the bias, b + w_0, into a 1 × 1 array.  Here those two arrays are named as terms of
  the arguments, and the region is shown to find exactly them.
-/
import proofs.«159901_j3204045603237_1_alg».proof.Proof.Gen.KernelIdeal.Frame
import Idealize.ShloMosaic.Lib.StableHlo.Run
import Idealize.ShloMosaic.PureOps.Ideal

noncomputable section

namespace Cert.KernelIdeal.HostVal

open Cert.KernelIdeal Cert.KernelIdeal.Gen Idealize.ShloMosaic Idealize.ShloMosaic.TcCoe Idealize.SL.Sem Idealize.ShloMosaic.StableHlo

/-- The first index table as the program passes it on: offset by 64 where negative — nowhere. -/
def idxCol0 : IVec S2080 32 :=
  select (constantI S2080 1 0#1)
    (addi (fun i => lit0 (S2080.rowMajor i)) (broadcastInDim S2080 ![] bcast_S_S2080 (constantI S_ 32 64#32)))
    fun i => lit0 (S2080.rowMajor i)

/-- The second index table, likewise. -/
def idxCol1 : IVec S2080 32 :=
  select (constantI S2080 1 0#1)
    (addi (fun i => lit1 (S2080.rowMajor i)) (broadcastInDim S2080 ![] bcast_S_S2080 (constantI S_ 32 64#32)))
    fun i => lit1 (S2080.rowMajor i)

/-- The index vectors (I k, J k), one per row. -/
def idxPairs : IVec S2080x2 32 :=
  concatenate S2080x2 1
    [⟨S2080x1, broadcastInDim S2080x1 ![0] bcast_S2080_S2080x1_0 idxCol0⟩,
     ⟨S2080x1, broadcastInDim S2080x1 ![0] bcast_S2080_S2080x1_0 idxCol1⟩]
    concatenates_S2080x1_S2080x1_S2080x2_d1

/-- The weight row as a vector. -/
def wvec (W : FVec Ideal S1x2145 .f32) : FVec Ideal S2145 .f32 :=
  fun i => shapeCast main_v0.ty.shape W shapeCasts_S1x2145_S2145 i

/-- The quadratic weights scattered to their pairs in a zero matrix. -/
def upper (W : FVec Ideal S1x2145 .f32) : FVec Ideal S64x64 .f32 :=
  Host.scatter scatter_S64x64_S2080x2_S2080_n_01_01_1 (fun _ b => b)
    (broadcastInDim S64x64 ![] bcast_S_S64x64 (constant S_ .f32 0x00000000#32)) idxPairs
    (extractStridedSlice S2080 ![65] (wvec W) slices_S2145_S2080_65)

/-- The symmetrised matrix (U + Uᵀ) · ½. -/
def sym (W : FVec Ideal S1x2145 .f32) : FVec Ideal S64x64 .f32 :=
  mulf (addf (upper W) (transpose S64x64 [1, 0] (upper W) transposes_S64x64_S64x64_1_0))
    (broadcastInDim S64x64 ![] bcast_S_S64x64 (constant S_ .f32 0x3F000000#32))

/-- The 64 × 128 matrix with the symmetrised matrix in columns 0 … 63. -/
def wcQuad (W : FVec Ideal S1x2145 .f32) : FVec Ideal S64x128 .f32 :=
  Host.scatter scatter_S64x128_S1_S64x64_01_n_1_0 (fun _ b => b)
    (broadcastInDim S64x128 ![] bcast_S_S64x128 (constant S_ .f32 0x00000000#32))
    (broadcastInDim S1 ![] bcast_S_S1 (constantI S_ 32 0#32)) (sym W)

/-- The folded weight matrix: the linear weights written into column 64. -/
def wcOf (W : FVec Ideal S1x2145 .f32) : FVec Ideal S64x128 .f32 :=
  Host.scatter scatter_S64x128_S1_S64_0_1_1_0 (fun _ b => b) (wcQuad W)
    (broadcastInDim S1 ![] bcast_S_S1 (constantI S_ 32 64#32))
    (extractStridedSlice S64 ![1] (wvec W) slices_S2145_S64_1)

/-- The folded bias b + w_0 as a 1 × 1 array. -/
def biasOf (W : FVec Ideal S1x2145 .f32) (b : FVec Ideal S1 .f32) : FVec Ideal S1x1 .f32 :=
  fun i => shapeCast main_v27.ty.shape
    (addf (fun i => shapeCast main_v25.ty.shape b shapeCasts_S1_S_ i)
      fun i => shapeCast main_v2.ty.shape (extractStridedSlice S1 ![0] (wvec W) slices_S2145_S1_0) shapeCasts_S1_S_ i)
    shapeCasts_S_S1x1 i

variable (m : (ℓ : Loc nD τ sig) → Buf (Elt Ideal) ℓ)

set_option maxHeartbeats 4000000 in
/-- The region finds the folded bias in its third operand. -/
theorem V_bias (c : Dev nD) :
    V m c main_v27 = biasOf (m ((c : Thread nD τ).loc main_arg1)) (m ((c : Thread nD τ).loc main_arg2)) := by
  dsimp only [Gen.V, Gen.V0]
  simp only [Gen.hostOps0, List.flatten_cons, List.flatten_nil, List.append_nil, List.cons_append, List.nil_append]
  after_results_simp
  rfl

set_option maxHeartbeats 8000000 in
/-- The region finds the folded weight matrix in its second operand. -/
theorem V_wc (c : Dev nD) : V m c main_v24 = wcOf (m ((c : Thread nD τ).loc main_arg1)) := by
  dsimp only [Gen.V, Gen.V0]
  simp only [Gen.hostOps0, List.flatten_cons, List.flatten_nil, List.append_nil, List.cons_append, List.nil_append]
  after_results
  rfl

end Cert.KernelIdeal.HostVal

end
-- ==== Proof.KernelValue.lean ====
/-
  The kernel program's result as one function of its arguments.

  The grid has 8 points; point t is given rows 4096·t … 4096·t + 4095 of x, the whole folded weight matrix and the
  folded bias, and writes rows 4096·t … of the 32768 × 1 result.  Each written block is the block of one whole-array
  function — row r of the result is the row value of row r of x — and the 8 blocks tile the result, so the result array
  ends holding that function; the program's last operation drops the unit axis.
-/
import proofs.«159901_j3204045603237_1_alg».proof.Proof.Gen.KernelIdeal.Frame
import proofs.«159901_j3204045603237_1_alg».proof.Proof.KernelPay
import proofs.«159901_j3204045603237_1_alg».proof.Proof.KernelHost
import Idealize.ShloMosaic.Lib.Pipeline.Value
import Idealize.ShloMosaic.Lib.StableHlo.Run

noncomputable section

namespace Cert.KernelIdeal.KVal

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-- The 32768 × 1 result of the call: row r holds the row value of row r of x. -/
def G (X : FVec Ideal S32768x64 .f32) (WC : FVec Ideal S64x128 .f32) (B : FVec Ideal S1x1 .f32) : FVec Ideal S32768x1 .f32 :=
  fun i => Cert.Poly.kernVal (fun k => X (ix2 (i 0) k)) (fun k c => WC (ix2 k c)) (B (ix2 (0 : Fin 1) (0 : Fin 1)))

theorem hz : (![0, 0] : Fin 2 → Nat) = fun _ => 0 := funext fun a => by fin_cases a <;> rfl

theorem t_lt (t : Fin cfg0.N) : t.val < 8 := by
  have h := t.isLt
  have e : cfg0.N = 8 := N_0
  omega

/-- The printed index maps, decided over the grid: the row windows move with the point, the others stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Point t's block of x is rows 4096·t … of x. -/
theorem iblk0_apply (c : Dev nD) (t : Fin cfg0.N) (r : Fin 4096) (k : Fin 64) :
    (iblk m c 0 t : Vec Ideal S4096x64 .f32) (ix2 r k)
      = V m c main_arg0 (ix2 (⟨t.val * 4096 + r.val, by have := t_lt t; omega⟩ : Fin 32768) k) := by
  unfold iblk
  rw [View.read_apply]
  show V m c main_arg0 _ = V m c main_arg0 _
  refine congrArg (V m c main_arg0) (funext fun a => Fin.ext ?_)
  match a with
  | ⟨0, _⟩ => show win0_0.index t (0 : Fin 2) * 4096 + 1 * r.val = t.val * 4096 + r.val; rw [(idx_facts t).1]; omega
  | ⟨1, _⟩ => show win0_0.index t (1 : Fin 2) * 64 + 1 * k.val = k.val; rw [(idx_facts t).2.1]; omega

/-- Every point's block of the folded weight matrix is the whole matrix. -/
theorem iblk1_apply (c : Dev nD) (t : Fin cfg0.N) (k : Fin 64) (cc : Fin 128) :
    (iblk m c 1 t : Vec Ideal S64x128 .f32) (ix2 k cc) = V m c main_v24 (ix2 k cc) := by
  unfold iblk
  rw [View.read_apply]
  show V m c main_v24 _ = V m c main_v24 _
  refine congrArg (V m c main_v24) (funext fun a => Fin.ext ?_)
  match a with
  | ⟨0, _⟩ => show win0_1.index t (0 : Fin 2) * 64 + 1 * k.val = k.val; rw [(idx_facts t).2.2.1]; omega
  | ⟨1, _⟩ => show win0_1.index t (1 : Fin 2) * 128 + 1 * cc.val = cc.val; rw [(idx_facts t).2.2.2.1]; omega

/-- Every point's block of the folded bias is the bias. -/
theorem iblk2_apply (c : Dev nD) (t : Fin cfg0.N) :
    (iblk m c 2 t : Vec Ideal S1x1 .f32) (ix2 (0 : Fin 1) (0 : Fin 1)) = V m c main_v27 (ix2 (0 : Fin 1) (0 : Fin 1)) := by
  unfold iblk
  rw [View.read_apply]
  show V m c main_v27 _ = V m c main_v27 _
  refine congrArg (V m c main_v27) (funext fun a => Fin.ext ?_)
  match a with
  | ⟨0, _⟩ => show win0_2.index t (0 : Fin 2) * 1 + 1 * 0 = 0; rw [(idx_facts t).2.2.2.2.1]
  | ⟨1, _⟩ => show win0_2.index t (1 : Fin 2) * 1 + 1 * 0 = 0; rw [(idx_facts t).2.2.2.2.2.1]

/-- WHAT POINT t WRITES BACK is block t of the whole-array function. -/
theorem flushed_eq (c : Dev nD) (t : Fin cfg0.N) :
    (dats m 0 c).flushed 3 t
      = ((cfg0.win 3).blk t).view.read (Elt Ideal) (G (V m c main_arg0) (V m c main_v24) (V m c main_v27)) := by
  show (cfg0.win 3).cut (grid0.coords t) ((dats m 0 c).after 3 t) = _
  rw [after0_3]
  unfold out0_3
  rw [View.canon_unit_zero hz]
  simp only [View.ld_unit_zero (S := S4096x64) hz, View.ld_unit_zero (S := S64x128) hz, View.ld_unit_zero (S := S1x1) hz]
  funext j
  obtain ⟨r, u, rfl⟩ : ∃ (r : Fin 4096) (u : Fin 1), j = ix2 r u := ⟨j 0, j 1, eq_ix2 j⟩
  rw [View.read_apply]
  refine (Pay.pay_apply (iblk m c 0 t) (iblk m c 1 t) (iblk m c 2 t) r u).trans ?_
  have he : ((cfg0.win 3).blk t).view.emb (ix2 r u)
      = ix2 (⟨t.val * 4096 + r.val, by have := t_lt t; omega⟩ : Fin 32768) (0 : Fin 1) := by
    funext a
    refine Fin.ext ?_
    match a with
    | ⟨0, _⟩ => show win0_3.index t (0 : Fin 2) * 4096 + 1 * r.val = t.val * 4096 + r.val; rw [(idx_facts t).2.2.2.2.2.2.1]; omega
    | ⟨1, _⟩ => show win0_3.index t (1 : Fin 2) * 1 + 1 * u.val = 0; rw [(idx_facts t).2.2.2.2.2.2.2]; omega
  rw [he]
  have e0 : (fun k : Fin 64 => (iblk m c 0 t : Vec Ideal S4096x64 .f32) (ix2 r k))
      = fun k => V m c main_arg0 (ix2 (⟨t.val * 4096 + r.val, by have := t_lt t; omega⟩ : Fin 32768) k) :=
    funext fun k => iblk0_apply m c t r k
  have e1 : (fun (k : Fin 64) (cc : Fin 128) => (iblk m c 1 t : Vec Ideal S64x128 .f32) (ix2 k cc))
      = fun k cc => V m c main_v24 (ix2 k cc) :=
    funext fun k => funext fun cc => iblk1_apply m c t k cc
  rw [e0, e1, iblk2_apply m c t]
  rfl

/-- The 8 blocks tile the result array. -/
theorem cover (i : S32768x1.Idx) : ∃ t : Fin cfg0.N, (cfg0.win 3).flush t = true ∧ i ∈ ((cfg0.win 3).blk t).view.set := by
  have h0 : (i 0).val < 32768 := (i 0).isLt
  have h1 : (i 1).val < 1 := (i 1).isLt
  have hN : cfg0.N = 8 := N_0
  let t : Fin cfg0.N := ⟨(i 0).val / 4096, by omega⟩
  refine ⟨t, flush0_3 t, ?_⟩
  show i ∈ ((View.whole main_v28).slice (win0_3.rect t)).set
  rw [View.set_slice_whole, Rect.mem_set_unit]
  intro a
  have ht : t.val = (i 0).val / 4096 := rfl
  match a with
  | ⟨0, _⟩ =>
    show win0_3.index t (0 : Fin 2) * 4096 ≤ (i 0).val ∧ (i 0).val < win0_3.index t (0 : Fin 2) * 4096 + 4096
    rw [(idx_facts t).2.2.2.2.2.2.1]; omega
  | ⟨1, _⟩ =>
    show win0_3.index t (1 : Fin 2) * 1 ≤ (i 1).val ∧ (i 1).val < win0_3.index t (1 : Fin 2) * 1 + 1
    rw [(idx_facts t).2.2.2.2.2.2.2]; omega

/-- So the result array ends holding the whole-array function. -/
theorem final (c : Dev nD) :
    (dats m 0 c).arrAt 3 cfg0.N = G (V m c main_arg0) (V m c main_v24) (V m c main_v27) :=
  (dats m 0 c).arrAt_eq_of_cover 3 (G (V m c main_arg0) (V m c main_v24) (V m c main_v27))
    (fun t _ => flushed_eq m c t) cover

/-- The program's result: the call's result with the unit axis dropped. -/
def kernOut (X : FVec Ideal S32768x64 .f32) (W : FVec Ideal S1x2145 .f32) (b : FVec Ideal S1 .f32) : FVec Ideal S32768 .f32 :=
  fun i => shapeCast main_v29.ty.shape (G X (HostVal.wcOf W) (HostVal.biasOf W b)) shapeCasts_S32768x1_S32768 i

/-- The operation after the region reads the call's result array. -/
theorem tail_eq (c : Dev nD) :
    Pipeline.afterTail₀ cfgs (dats m) 0 (V0 m) [hostOps1] c main_v29
      = kernOut (m ((c : Thread nD τ).loc main_arg0)) (m ((c : Thread nD τ).loc main_arg1)) (m ((c : Thread nD τ).loc main_arg2)) := by
  unfold Pipeline.afterTail₀
  show StableHlo.after hostOps1 _ (Proc.devRef .tc main_v29) = _
  after_results
  unfold kernOut
  have hw := (Pipeline.withArrays_arr spec0 launch0.win.arr_inj c (V0 m c) (fun w => (dats m 0 c).arrAt w cfg0.N) 3).trans (final m c)
  rw [V_main_arg0, HostVal.V_wc, HostVal.V_bias] at hw
  funext i
  exact congrArg (fun g => shapeCast main_v29.ty.shape g shapeCasts_S32768x1_S32768 i) hw

/-- THE RUN, READ: the program ends with its result at the whole-array function of the arguments, the arguments
    unchanged. -/
theorem run : θ_run (defs (F := Ideal)) (onTc (τ := τ) (main (F := Ideal))) ⟨m, fun _ => 0, ρ⟩ fun r => ∀ c : Dev nD,
      r.2.mem ((c.tc : Thread nD τ).loc main_v29)
        = kernOut (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v29 (Pipeline.mem_restRefs_of main_v29 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KVal

end
-- ==== Proof.Spec.lean ====
/-
  The value both programs compute, for one row of the batch, as a function of that row x (64 numbers), the weight row w
  (2145 numbers) and the bias b:  the degree-2 polynomial model

      w_0 · 1  +  ∑_d w_{1+d} · x_d  +  ∑_k w_{65+k} · x_{p k} · x_{q k}  +  b,

  where k ↦ (p k, q k) lists the pairs of coordinates whose products are the quadratic features.  It is written as the
  reference writes it: one sum over the 2145 features, feature n being 1, a coordinate, or a product of two.
-/
import Idealize.ShloMosaic.PureOps.Ideal
import Idealize.ShloMosaic.Lib.ValueIdx

noncomputable section

namespace Cert.Poly

open Idealize.ShloMosaic

/-- A start-index word as a gather along an axis of extent 64 reads it: as a signed integer, clamped into [0, 63]. -/
def clampCol (w : BitVec 32) : Fin 64 := ⟨min w.toInt.toNat 63, by omega⟩

/-- Feature n of the row x: the constant 1 (n = 0), the coordinate x_{n-1} (1 ≤ n ≤ 64), or the product
    x_{p k} · x_{q k} with k = n − 65. -/
def feat (x : Fin 64 → EReal) (p q : Fin 2080 → Fin 64) (n : Fin 2145) : EReal :=
  if _h0 : n.val = 0 then 1
  else if h1 : n.val < 65 then x ⟨n.val - 1, by omega⟩
  else x (p ⟨n.val - 65, by omega⟩) * x (q ⟨n.val - 65, by omega⟩)

/-- The model's value on the row x: the features against the weights, summed, plus the bias. -/
def refVal (x : Fin 64 → EReal) (w : Fin 2145 → EReal) (b : EReal) (p q : Fin 2080 → Fin 64) : EReal :=
  (∑ n : Fin 2145, feat x p q n * w n) + b

end Cert.Poly

end
-- ==== Proof.Tables.lean ====
/-
  The two index tables of the program, I and J (2080 entries each): the pairs (I k, J k) are the positions of the upper
  triangle of a 64 × 64 matrix, row by row.  What the proof uses of them: every entry is a column number below 64, so a
  gather's clamp and a scatter's signed reading both see the entry itself; and the pair determines k — position k of
  the triangle is recovered from (I k, J k) as I·64 − I(I−1)/2 + (J − I) —, so no two updates of the scatter land on the
  same matrix element.  Both are checked entry by entry.
-/
import proofs.«159901_j3204045603237_1_alg».proof.KernelIdeal
import proofs.«159901_j3204045603237_1_alg».proof.Proof.Spec

namespace Cert.KernelIdeal.Tables

open Cert.KernelIdeal Idealize.ShloMosaic

/-- Row index of pair k. -/
def P (k : Fin 2080) : Fin 64 := Cert.Poly.clampCol (lit0 k)
/-- Column index of pair k. -/
def Q (k : Fin 2080) : Fin 64 := Cert.Poly.clampCol (lit1 k)

set_option maxRecDepth 100000 in
/-- Every entry of the first table reads, signed, as its clamped value. -/
theorem toInt0 : ∀ k : Fin 2080, (lit0 k).toInt = ((P k).val : ℤ) := by decide +kernel

set_option maxRecDepth 100000 in
/-- Every entry of the second table reads, signed, as its clamped value. -/
theorem toInt1 : ∀ k : Fin 2080, (lit1 k).toInt = ((Q k).val : ℤ) := by decide +kernel

set_option maxRecDepth 100000 in
/-- The pair determines its position in the triangle. -/
theorem pos_of_pair : ∀ k : Fin 2080,
    (P k).val * 64 - (P k).val * ((P k).val - 1) / 2 + ((Q k).val - (P k).val) = k.val := by decide +kernel

/-- No two positions carry the same pair. -/
theorem pair_inj {k k' : Fin 2080} (hP : P k = P k') (hQ : Q k = Q k') : k = k' := by
  refine Fin.ext ?_
  rw [← pos_of_pair k, ← pos_of_pair k', hP, hQ]

end Cert.KernelIdeal.Tables
-- ==== Proof.LibSetScatter.lean ====
/-
  A "set" scatter read at one element.

  The host's scatter whose body returns the update (x.at[idx].set(v)) is the left fold, over the updates in row-major
  order, of "overwrite the element this update lands on".  Read at one element i of the result: if no update lands on i
  the element is the operand's; if some do and they all carry the same value a (in particular if exactly one lands
  there), the element is a — whatever the order of the fold.  Which element an update lands on is the dimension numbers'
  result index; this file is independent of them.
-/
import Idealize.ShloMosaic.PureOps.ShapeOps
import Idealize.ShloMosaic.PureOps.Dims

namespace Cert.LibSetScatter

open Idealize.ShloMosaic

section Fold

variable {ι κ α : Type} [DecidableEq κ]

/-- A fold of overwrites read at one key: `a` if some step of the list lands on the key (all that do carry `a`), else the
    start value. -/
theorem foldl_overwrite_apply (g : ι → Option κ) (v : ι → α) (stp : (κ → α) → ι → (κ → α))
    (hs : ∀ r n i, g n = some i → stp r n = fun i' => if i' = i then v n else r i')
    (hn : ∀ r n, g n = none → stp r n = r) (i' : κ) (a : α) :
    ∀ (L : List ι) (x : κ → α), (∀ n ∈ L, g n = some i' → v n = a) →
      L.foldl stp x i' = (open Classical in if ∃ n ∈ L, g n = some i' then a else x i') := by
  classical
  intro L
  induction L with
  | nil => intro x _; simp
  | cons n L ih =>
    intro x hv
    rw [List.foldl_cons, ih (stp x n) (fun n' hn' => hv n' (List.mem_cons_of_mem _ hn'))]
    by_cases hex : ∃ n' ∈ L, g n' = some i'
    · rw [if_pos hex, if_pos (by obtain ⟨n', h1, h2⟩ := hex; exact ⟨n', List.mem_cons_of_mem _ h1, h2⟩)]
    · rw [if_neg hex]
      cases hg : g n with
      | none =>
        rw [hn x n hg, if_neg]
        rintro ⟨n', h1, h2⟩
        rcases List.mem_cons.mp h1 with rfl | h1
        · rw [hg] at h2; cases h2
        · exact hex ⟨n', h1, h2⟩
      | some i =>
        rw [hs x n i hg]
        dsimp only
        by_cases hi : i' = i
        · subst hi
          rw [if_pos rfl, if_pos ⟨n, List.mem_cons_self, hg⟩]
          exact hv n List.mem_cons_self hg
        · rw [if_neg hi, if_neg]
          rintro ⟨n', h1, h2⟩
          rcases List.mem_cons.mp h1 with rfl | h1
          · rw [hg] at h2; exact hi (Option.some.inj h2).symm
          · exact hex ⟨n', h1, h2⟩

end Fold

variable {α : Type} {s si u : Shape} {w : Nat}

/-- The set scatter at an element on which some update lands, all such updates carrying the same value. -/
theorem scatter_set_hit (d : ScatterDims s si u) (x : s.Idx → α) (idx : IVec si w) (upd : u.Idx → α) (i' : s.Idx)
    (j₀ : u.Idx) (h₀ : d.resultIdx? j₀ idx = some i')
    (hval : ∀ j : u.Idx, d.resultIdx? j idx = some i' → upd j = upd j₀) :
    Host.scatter d (fun _ b => b) x idx upd i' = upd j₀ := by
  classical
  unfold Host.scatter
  rw [foldl_overwrite_apply (fun n => d.resultIdx? (u.rowMajor.symm n) idx) (fun n => upd (u.rowMajor.symm n)) _
    (fun r n i h => by simp only [h]) (fun r n h => by simp only [h]) i' (upd j₀) _ x
    (fun n _ h => hval _ h)]
  rw [if_pos ⟨u.rowMajor j₀, List.mem_finRange _, by rw [Equiv.symm_apply_apply]; exact h₀⟩]

/-- The set scatter at an element no update lands on: the operand's element. -/
theorem scatter_set_miss (d : ScatterDims s si u) (x : s.Idx → α) (idx : IVec si w) (upd : u.Idx → α) (i' : s.Idx)
    (hmiss : ∀ j : u.Idx, d.resultIdx? j idx ≠ some i') :
    Host.scatter d (fun _ b => b) x idx upd i' = x i' := by
  classical
  unfold Host.scatter
  rw [foldl_overwrite_apply (fun n => d.resultIdx? (u.rowMajor.symm n) idx) (fun n => upd (u.rowMajor.symm n)) _
    (fun r n i h => by simp only [h]) (fun r n h => by simp only [h]) i' (x i') _ x
    (fun n _ h => absurd h (hmiss _))]
  rw [if_neg]
  rintro ⟨n, _, h⟩
  exact hmiss _ h

end Cert.LibSetScatter
-- ==== Proof.LibScatterIdx.lean ====
/-
  Where a scatter's updates land, for three layouts of dimension numbers over a rank-2 operand.

  An update element lands on the operand element whose coordinate on every axis is the start index's component for that
  axis (read signed, not clamped; 0 on an axis the map does not name) plus the update's window coordinate (0 on an
  inserted axis) — when that is inside the operand.  resultIdx?_eq_some_iff says so in general.  The three layouts:
  pairs: updates [K] at index vectors [K, 2] naming both axes (x.at[I, J].set(v)): update k lands on (I k, J k);
  block: an [A', B] block at one start column (x.at[:, c0 : c0 + B].set(v)): update (a, b) lands on (a, c0 + b);
  column: an [A'] column at one start column (x.at[:, c0].set(v)): update a lands on (a, c0).
-/
import Idealize.ShloMosaic.PureOps.ShapeOps
import Idealize.ShloMosaic.PureOps.Dims
import Idealize.ShloMosaic.Lib.ValueIdx

namespace Cert.LibScatterIdx

open Idealize.ShloMosaic Idealize.ShloMosaic.ValueIdx

/-- An update lands on `i` exactly when start + window is `i`'s coordinate on every axis. -/
theorem resultIdx?_eq_some_iff {s si u : Shape} {w : ℕ} (d : ScatterDims s si u) (j : u.Idx) (idx : IVec si w) (i : s.Idx) :
    d.resultIdx? j idx = some i ↔ ∀ a, d.start j idx a + (d.window j a : ℤ) = ((i a).val : ℤ) := by
  unfold ScatterDims.resultIdx?
  split
  · rename_i h
    rw [Option.some.injEq]
    constructor
    · intro he a
      have e := congrArg Fin.val (congrFun he a)
      have b := (h a).1
      simp only at e
      omega
    · intro he
      funext a
      refine Fin.ext ?_
      have e := he a
      show (d.start j idx a + (d.window j a : ℤ)).toNat = (i a).val
      omega
  · rename_i h
    constructor
    · intro he; cases he
    · intro he
      exfalso
      apply h
      intro a
      have e := he a
      have := (i a).isLt
      constructor <;> omega

/-! ## Pairs: updates [K] at index vectors [K, 2] -/

abbrev pairDims (N0 N1 K : ℕ) (wf : ScatterDims.WF ⟨2, ![N0, N1]⟩ ⟨2, ![K, 2]⟩ ⟨1, ![K]⟩ [] [0, 1] [0, 1] 1) :
    ScatterDims ⟨2, ![N0, N1]⟩ ⟨2, ![K, 2]⟩ ⟨1, ![K]⟩ where
  updateWindowDims := []
  insertedWindowDims := [0, 1]
  scatterDimsToOperandDims := [0, 1]
  indexVectorDim := 1
  wf := wf

section Pair
variable {N0 N1 K w : ℕ} (wf : ScatterDims.WF ⟨2, ![N0, N1]⟩ ⟨2, ![K, 2]⟩ ⟨1, ![K]⟩ [] [0, 1] [0, 1] 1)
  (idx : IVec ⟨2, ![K, 2]⟩ w) (k : Fin K)

theorem pair_start0 : (pairDims N0 N1 K wf).start (ix1 k) idx 0 = (idx (ix2 k 0)).toInt := by
  unfold ScatterDims.start
  rw [dif_pos (show (0 : Fin 2) ∈ (pairDims N0 N1 K wf).scatterDimsToOperandDims by show (0 : Fin 2) ∈ [(0 : Fin 2), 1]; decide)]
  have hsi : (pairDims N0 N1 K wf).siIdx (ix1 k) ⟨List.idxOf (0 : Fin 2) (pairDims N0 N1 K wf).scatterDimsToOperandDims,
      List.idxOf_lt_length_iff.2 (by show (0 : Fin 2) ∈ [(0 : Fin 2), 1]; decide)⟩ = ix2 k 0 := by
    funext b; refine Fin.ext ?_
    match b with
    | ⟨0, _⟩ => rfl
    | ⟨1, _⟩ => rfl
  rw [hsi]

theorem pair_start1 : (pairDims N0 N1 K wf).start (ix1 k) idx 1 = (idx (ix2 k 1)).toInt := by
  unfold ScatterDims.start
  rw [dif_pos (show (1 : Fin 2) ∈ (pairDims N0 N1 K wf).scatterDimsToOperandDims by show (1 : Fin 2) ∈ [(0 : Fin 2), 1]; decide)]
  have hsi : (pairDims N0 N1 K wf).siIdx (ix1 k) ⟨List.idxOf (1 : Fin 2) (pairDims N0 N1 K wf).scatterDimsToOperandDims,
      List.idxOf_lt_length_iff.2 (by show (1 : Fin 2) ∈ [(0 : Fin 2), 1]; decide)⟩ = ix2 k 1 := by
    funext b; refine Fin.ext ?_
    match b with
    | ⟨0, _⟩ => rfl
    | ⟨1, _⟩ => rfl
  rw [hsi]

theorem pair_window (a : Fin 2) : (pairDims N0 N1 K wf).window (ix1 k) a = 0 := by
  unfold ScatterDims.window
  rw [dif_neg (show a ∉ (pairDims N0 N1 K wf).sKept by
    show a ∉ (List.finRange 2).filter (fun a => decide (a ∉ [(0 : Fin 2), 1])); revert a; decide)]

theorem pair_lands_lit (i : Fin N0) (j : Fin N1) :
    (pairDims N0 N1 K wf).resultIdx? (ix1 k) idx = some (ix2 i j)
      ↔ (idx (ix2 k 0)).toInt = (i.val : ℤ) ∧ (idx (ix2 k 1)).toInt = (j.val : ℤ) := by
  rw [resultIdx?_eq_some_iff, Fin.forall_fin_two, pair_start0, pair_start1, pair_window, pair_window]
  show (idx (ix2 k 0)).toInt + ((0 : ℕ) : ℤ) = (i.val : ℤ) ∧ (idx (ix2 k 1)).toInt + ((0 : ℕ) : ℤ) = (j.val : ℤ) ↔ _
  simp only [Nat.cast_zero, add_zero]

end Pair

/-- PAIRS: update k lands on (i, j) exactly when its two index words read as i and j. -/
theorem pair_lands {N0 N1 K w : ℕ} (d : ScatterDims ⟨2, ![N0, N1]⟩ ⟨2, ![K, 2]⟩ ⟨1, ![K]⟩)
    (h1 : d.updateWindowDims = []) (h2 : d.insertedWindowDims = [0, 1]) (h3 : d.scatterDimsToOperandDims = [0, 1])
    (h4 : d.indexVectorDim = 1) (idx : IVec ⟨2, ![K, 2]⟩ w) (k : Fin K) (i : Fin N0) (j : Fin N1) :
    d.resultIdx? (ix1 k) idx = some (ix2 i j)
      ↔ (idx (ix2 k 0)).toInt = (i.val : ℤ) ∧ (idx (ix2 k 1)).toInt = (j.val : ℤ) := by
  obtain ⟨uw, iw, sd, iv, wf⟩ := d
  simp only at h1 h2 h3 h4
  subst h1 h2 h3 h4
  exact pair_lands_lit wf idx k i j

/-! ## Block: an [A', B] block at one start column -/

abbrev blockDims (A C A' B : ℕ) (wf : ScatterDims.WF ⟨2, ![A, C]⟩ ⟨1, ![1]⟩ ⟨2, ![A', B]⟩ [0, 1] [] [1] 0) :
    ScatterDims ⟨2, ![A, C]⟩ ⟨1, ![1]⟩ ⟨2, ![A', B]⟩ where
  updateWindowDims := [0, 1]
  insertedWindowDims := []
  scatterDimsToOperandDims := [1]
  indexVectorDim := 0
  wf := wf

section Block
variable {A C A' B w : ℕ} (wf : ScatterDims.WF ⟨2, ![A, C]⟩ ⟨1, ![1]⟩ ⟨2, ![A', B]⟩ [0, 1] [] [1] 0)
  (idx : IVec ⟨1, ![1]⟩ w) (a : Fin A') (b : Fin B)

theorem block_start0 : (blockDims A C A' B wf).start (ix2 a b) idx 0 = 0 := by
  unfold ScatterDims.start
  rw [dif_neg (show (0 : Fin 2) ∉ (blockDims A C A' B wf).scatterDimsToOperandDims by show (0 : Fin 2) ∉ [(1 : Fin 2)]; decide)]

theorem block_start1 : (blockDims A C A' B wf).start (ix2 a b) idx 1 = (idx (ix1 0)).toInt := by
  unfold ScatterDims.start
  rw [dif_pos (show (1 : Fin 2) ∈ (blockDims A C A' B wf).scatterDimsToOperandDims from List.mem_singleton.mpr rfl)]
  have hsi : (blockDims A C A' B wf).siIdx (ix2 a b) ⟨List.idxOf (1 : Fin 2) (blockDims A C A' B wf).scatterDimsToOperandDims,
      List.idxOf_lt_length_iff.2 (List.mem_singleton.mpr rfl)⟩ = ix1 0 := by
    funext c; refine Fin.ext ?_
    match c with
    | ⟨0, _⟩ => rfl
  rw [hsi]

theorem block_window0 : (blockDims A C A' B wf).window (ix2 a b) 0 = a.val := by
  unfold ScatterDims.window
  rw [dif_pos (show (0 : Fin 2) ∈ (blockDims A C A' B wf).sKept by
    show (0 : Fin 2) ∈ (List.finRange 2).filter (fun a => decide (a ∉ ([] : List (Fin 2)))); decide)]
  rfl

theorem block_window1 : (blockDims A C A' B wf).window (ix2 a b) 1 = b.val := by
  unfold ScatterDims.window
  rw [dif_pos (show (1 : Fin 2) ∈ (blockDims A C A' B wf).sKept by
    show (1 : Fin 2) ∈ (List.finRange 2).filter (fun a => decide (a ∉ ([] : List (Fin 2)))); decide)]
  rfl

theorem block_lands_lit (a' : Fin A) (c : Fin C) :
    (blockDims A C A' B wf).resultIdx? (ix2 a b) idx = some (ix2 a' c)
      ↔ (a.val : ℤ) = (a'.val : ℤ) ∧ (idx (ix1 0)).toInt + (b.val : ℤ) = (c.val : ℤ) := by
  rw [resultIdx?_eq_some_iff, Fin.forall_fin_two, block_start0, block_start1, block_window0, block_window1]
  show (0 : ℤ) + (a.val : ℤ) = (a'.val : ℤ) ∧ _ ↔ _
  rw [zero_add]

end Block

/-- BLOCK: update (a, b) lands on (a', c) exactly when a = a' and the start column plus b is c. -/
theorem block_lands {A C A' B w : ℕ} (d : ScatterDims ⟨2, ![A, C]⟩ ⟨1, ![1]⟩ ⟨2, ![A', B]⟩)
    (h1 : d.updateWindowDims = [0, 1]) (h2 : d.insertedWindowDims = []) (h3 : d.scatterDimsToOperandDims = [1])
    (h4 : d.indexVectorDim = 0) (idx : IVec ⟨1, ![1]⟩ w) (a : Fin A') (b : Fin B) (a' : Fin A) (c : Fin C) :
    d.resultIdx? (ix2 a b) idx = some (ix2 a' c)
      ↔ (a.val : ℤ) = (a'.val : ℤ) ∧ (idx (ix1 0)).toInt + (b.val : ℤ) = (c.val : ℤ) := by
  obtain ⟨uw, iw, sd, iv, wf⟩ := d
  simp only at h1 h2 h3 h4
  subst h1 h2 h3 h4
  exact block_lands_lit wf idx a b a' c

/-! ## Column: an [A'] column at one start column -/

abbrev colDims (A C A' : ℕ) (wf : ScatterDims.WF ⟨2, ![A, C]⟩ ⟨1, ![1]⟩ ⟨1, ![A']⟩ [0] [1] [1] 0) :
    ScatterDims ⟨2, ![A, C]⟩ ⟨1, ![1]⟩ ⟨1, ![A']⟩ where
  updateWindowDims := [0]
  insertedWindowDims := [1]
  scatterDimsToOperandDims := [1]
  indexVectorDim := 0
  wf := wf

section Col
variable {A C A' w : ℕ} (wf : ScatterDims.WF ⟨2, ![A, C]⟩ ⟨1, ![1]⟩ ⟨1, ![A']⟩ [0] [1] [1] 0)
  (idx : IVec ⟨1, ![1]⟩ w) (a : Fin A')

theorem col_start0 : (colDims A C A' wf).start (ix1 a) idx 0 = 0 := by
  unfold ScatterDims.start
  rw [dif_neg (show (0 : Fin 2) ∉ (colDims A C A' wf).scatterDimsToOperandDims by show (0 : Fin 2) ∉ [(1 : Fin 2)]; decide)]

theorem col_start1 : (colDims A C A' wf).start (ix1 a) idx 1 = (idx (ix1 0)).toInt := by
  unfold ScatterDims.start
  rw [dif_pos (show (1 : Fin 2) ∈ (colDims A C A' wf).scatterDimsToOperandDims from List.mem_singleton.mpr rfl)]
  have hsi : (colDims A C A' wf).siIdx (ix1 a) ⟨List.idxOf (1 : Fin 2) (colDims A C A' wf).scatterDimsToOperandDims,
      List.idxOf_lt_length_iff.2 (List.mem_singleton.mpr rfl)⟩ = ix1 0 := by
    funext c; refine Fin.ext ?_
    match c with
    | ⟨0, _⟩ => rfl
  rw [hsi]

theorem col_window0 : (colDims A C A' wf).window (ix1 a) 0 = a.val := by
  unfold ScatterDims.window
  rw [dif_pos (show (0 : Fin 2) ∈ (colDims A C A' wf).sKept by
    show (0 : Fin 2) ∈ (List.finRange 2).filter (fun a => decide (a ∉ [(1 : Fin 2)])); decide)]
  rfl

theorem col_window1 : (colDims A C A' wf).window (ix1 a) 1 = 0 := by
  unfold ScatterDims.window
  rw [dif_neg (show (1 : Fin 2) ∉ (colDims A C A' wf).sKept by
    show (1 : Fin 2) ∉ (List.finRange 2).filter (fun a => decide (a ∉ [(1 : Fin 2)])); decide)]

theorem col_lands_lit (a' : Fin A) (c : Fin C) :
    (colDims A C A' wf).resultIdx? (ix1 a) idx = some (ix2 a' c)
      ↔ (a.val : ℤ) = (a'.val : ℤ) ∧ (idx (ix1 0)).toInt = (c.val : ℤ) := by
  rw [resultIdx?_eq_some_iff, Fin.forall_fin_two, col_start0, col_start1, col_window0, col_window1]
  show (0 : ℤ) + (a.val : ℤ) = (a'.val : ℤ) ∧ (idx (ix1 0)).toInt + ((0 : ℕ) : ℤ) = (c.val : ℤ) ↔ _
  simp only [Nat.cast_zero, add_zero, zero_add]

end Col

/-- COLUMN: update a lands on (a', c) exactly when a = a' and the start column is c. -/
theorem col_lands {A C A' w : ℕ} (d : ScatterDims ⟨2, ![A, C]⟩ ⟨1, ![1]⟩ ⟨1, ![A']⟩)
    (h1 : d.updateWindowDims = [0]) (h2 : d.insertedWindowDims = [1]) (h3 : d.scatterDimsToOperandDims = [1])
    (h4 : d.indexVectorDim = 0) (idx : IVec ⟨1, ![1]⟩ w) (a : Fin A') (a' : Fin A) (c : Fin C) :
    d.resultIdx? (ix1 a) idx = some (ix2 a' c)
      ↔ (a.val : ℤ) = (a'.val : ℤ) ∧ (idx (ix1 0)).toInt = (c.val : ℤ) := by
  obtain ⟨uw, iw, sd, iv, wf⟩ := d
  simp only at h1 h2 h3 h4
  subst h1 h2 h3 h4
  exact col_lands_lit wf idx a a' c

end Cert.LibScatterIdx
-- ==== Proof.HostRead.lean ====
/-
  The folded weight matrix and the folded bias read at an index.

  U, the scatter of the quadratic weights: no two pairs (I k, J k) coincide, so element (i, j) of U is the weight of the
  one pair equal to (i, j), or 0 when there is none — written as the sum over all k of the weights whose pair is (i, j).
  The symmetrised matrix at (d, c) is (U(d, c) + U(c, d)) · ½.  The 64 × 128 matrix has it in columns 0 … 63 (the block
  written at column 0 covers exactly those columns, the column written afterwards touches column 64 only) and the
  linear weight w_{1+d} at (d, 64).  The folded bias is b + w_0.
-/
import proofs.«159901_j3204045603237_1_alg».proof.Proof.KernelHost
import proofs.«159901_j3204045603237_1_alg».proof.Proof.Tables
import proofs.«159901_j3204045603237_1_alg».proof.Proof.LibSetScatter
import proofs.«159901_j3204045603237_1_alg».proof.Proof.LibScatterIdx
import Idealize.ShloMosaic.Lib.Pipeline.Value
import Idealize.ShloMosaic.Lib.ValueIdx
import Idealize.ShloMosaic.PureOps.Ideal.Laws

noncomputable section

namespace Cert.KernelIdeal.HostVal

open Cert.KernelIdeal Cert.KernelIdeal.Gen Idealize.ShloMosaic Idealize.ShloMosaic.ValueIdx
open Cert.KernelIdeal.Tables

/-! ## The index vectors -/

theorem idxCol0_apply (k : Fin 2080) : idxCol0 (ix1 k) = lit0 k := by
  unfold idxCol0
  rw [select_apply]
  show Scalar.select 0#1 _ _ = _
  rw [select_zero]
  exact congrArg lit0 (Fin.ext ((Shape.rowMajor_val_one (ix1 k)).trans rfl))

theorem idxCol1_apply (k : Fin 2080) : idxCol1 (ix1 k) = lit1 k := by
  unfold idxCol1
  rw [select_apply]
  show Scalar.select 0#1 _ _ = _
  rw [select_zero]
  exact congrArg lit1 (Fin.ext ((Shape.rowMajor_val_one (ix1 k)).trans rfl))

theorem col_bcast (v : IVec S2080 32) (k : Fin 2080) :
    broadcastInDim S2080x1 ![0] bcast_S2080_S2080x1_0 v (ix2 k (0 : Fin 1)) = v (ix1 k) := by
  refine broadcastInDim_apply ![0] bcast_S2080_S2080x1_0 v (ix2 k (0 : Fin 1)) (ix1 k) fun a => ?_
  match a with
  | ⟨0, _⟩ =>
    show k.val = if (2080 : ℕ) = 1 then 0 else k.val
    rw [if_neg (by decide)]

theorem idxPairs0 (k : Fin 2080) : idxPairs (ix2 k (0 : Fin 2)) = lit0 k := by
  unfold idxPairs
  have hc := concatenate_pair_apply_left (t := S2080x2) (s₁ := S2080x1) (s₂ := S2080x1) (1 : Fin 2)
    (broadcastInDim S2080x1 ![0] bcast_S2080_S2080x1_0 idxCol0) (broadcastInDim S2080x1 ![0] bcast_S2080_S2080x1_0 idxCol1)
    concatenates_S2080x1_S2080x1_S2080x2_d1 (ix2 k (0 : Fin 2)) rfl (ix2 k (0 : Fin 1)) (by intro b; fin_cases b <;> rfl)
  exact hc.trans ((col_bcast idxCol0 k).trans (idxCol0_apply k))

theorem idxPairs1 (k : Fin 2080) : idxPairs (ix2 k (1 : Fin 2)) = lit1 k := by
  unfold idxPairs
  have hc := concatenate_pair_apply_right (t := S2080x2) (s₁ := S2080x1) (s₂ := S2080x1) (1 : Fin 2)
    (broadcastInDim S2080x1 ![0] bcast_S2080_S2080x1_0 idxCol0) (broadcastInDim S2080x1 ![0] bcast_S2080_S2080x1_0 idxCol1)
    concatenates_S2080x1_S2080x1_S2080x2_d1 (ix2 k (1 : Fin 2)) rfl rfl (ix2 k (0 : Fin 1))
    (by intro b hb; fin_cases b; · rfl
        · exact absurd rfl hb) rfl
  exact hc.trans ((col_bcast idxCol1 k).trans (idxCol1_apply k))

/-! ## The weight row's pieces -/

theorem wvec_apply (W : FVec Ideal S1x2145 .f32) (n : Fin 2145) : wvec W (ix1 n) = W (ix2 (0 : Fin 1) n) := by
  unfold wvec
  refine shapeCast_apply W shapeCasts_S1x2145_S2145 (ix1 n) (ix2 (0 : Fin 1) n) ?_
  rw [Shape.rowMajor_val_two, Shape.rowMajor_val_one]
  show 0 * 2145 + n.val = n.val
  omega

theorem quadW_apply (W : FVec Ideal S1x2145 .f32) (k : Fin 2080) :
    extractStridedSlice S2080 ![65] (wvec W) slices_S2145_S2080_65 (ix1 k) = W (ix2 (0 : Fin 1) ⟨65 + k.val, by omega⟩) :=
  (extractStridedSlice_apply _ _ _ (ix1 k) (ix1 ⟨65 + k.val, by omega⟩) fun a => by
    match a with
    | ⟨0, _⟩ => rfl).trans (wvec_apply W _)

theorem linW_apply (W : FVec Ideal S1x2145 .f32) (d : Fin 64) :
    extractStridedSlice S64 ![1] (wvec W) slices_S2145_S64_1 (ix1 d) = W (ix2 (0 : Fin 1) ⟨1 + d.val, by omega⟩) :=
  (extractStridedSlice_apply _ _ _ (ix1 d) (ix1 ⟨1 + d.val, by omega⟩) fun a => by
    match a with
    | ⟨0, _⟩ => rfl).trans (wvec_apply W _)

/-! ## The scattered matrix U -/

/-- Update k of the scatter lands on (i, j) exactly when (I k, J k) = (i, j). -/
theorem lands (k : Fin 2080) (i j : Fin 64) :
    scatter_S64x64_S2080x2_S2080_n_01_01_1.resultIdx? (ix1 k) idxPairs = some (ix2 i j) ↔ P k = i ∧ Q k = j := by
  rw [Cert.LibScatterIdx.pair_lands scatter_S64x64_S2080x2_S2080_n_01_01_1 rfl rfl rfl rfl idxPairs k i j,
    idxPairs0, idxPairs1, toInt0, toInt1]
  constructor
  · rintro ⟨h1, h2⟩; exact ⟨Fin.ext (by omega), Fin.ext (by omega)⟩
  · rintro ⟨rfl, rfl⟩; exact ⟨rfl, rfl⟩

/-- U at (i, j): the quadratic weights whose pair is (i, j), summed (there is at most one). -/
theorem upper_apply (W : FVec Ideal S1x2145 .f32) (i j : Fin 64) :
    upper W (ix2 i j)
      = ∑ k : Fin 2080, if P k = i then (if Q k = j then W (ix2 (0 : Fin 1) ⟨65 + k.val, by omega⟩) else 0) else 0 := by
  unfold upper
  by_cases hex : ∃ k, P k = i ∧ Q k = j
  · obtain ⟨k₀, hP, hQ⟩ := hex
    refine (Cert.LibSetScatter.scatter_set_hit _ _ _ _ (ix2 i j) (ix1 k₀) ((lands k₀ i j).mpr ⟨hP, hQ⟩) fun j' hj' => ?_).trans ?_
    · rw [eq_ix1 j'] at hj' ⊢
      obtain ⟨h1, h2⟩ := (lands (j' 0) i j).mp hj'
      have e : j' 0 = k₀ := pair_inj (h1.trans hP.symm) (h2.trans hQ.symm)
      rw [e]
      try rfl
    · rw [quadW_apply, Finset.sum_eq_single k₀]
      · rw [if_pos hP, if_pos hQ]
      · intro k _ hk
        by_cases h1 : P k = i
        · by_cases h2 : Q k = j
          · exact absurd (pair_inj (h1.trans hP.symm) (h2.trans hQ.symm)) hk
          · rw [if_pos h1, if_neg h2]
        · rw [if_neg h1]
      · intro h; exact absurd (Finset.mem_univ _) h
  · refine (Cert.LibSetScatter.scatter_set_miss _ _ _ _ (ix2 i j) fun j' hj' => hex ⟨j' 0, (lands (j' 0) i j).mp ?_⟩).trans ?_
    · rw [eq_ix1 j'] at hj'; exact hj'
    · show Ideal.ofBits .f32 0x00000000#32 = _
      rw [Ideal.ofBits_zero_f32]
      refine (Finset.sum_eq_zero fun k _ => ?_).symm
      by_cases h1 : P k = i
      · by_cases h2 : Q k = j
        · exact absurd ⟨k, h1, h2⟩ hex
        · rw [if_pos h1, if_neg h2]
      · rw [if_neg h1]

/-! ## The symmetrised matrix and the folded weight matrix -/

theorem sym_apply (W : FVec Ideal S1x2145 .f32) (d c : Fin 64) :
    sym W (ix2 d c) = (upper W (ix2 d c) + upper W (ix2 c d)) * Ideal.ofBits .f32 0x3F000000#32 := by
  unfold sym
  rw [mulf_apply, addf_apply]
  refine congrArg₂ (· * ·) (congrArg₂ (· + ·) rfl ?_) rfl
  exact transpose_apply [1, 0] (upper W) transposes_S64x64_S64x64_1_0 (ix2 d c) (ix2 c d) fun b => by
    match b with
    | ⟨0, _⟩ => rfl
    | ⟨1, _⟩ => rfl

/-- Columns 0 … 63 after the block is written: the symmetrised matrix. -/
theorem wcQuad_apply (W : FVec Ideal S1x2145 .f32) (d c : Fin 64) :
    wcQuad W (ix2 d (Fin.castLE (by decide) c : Fin 128)) = sym W (ix2 d c) := by
  unfold wcQuad
  have hl : ∀ (a b : Fin 64), scatter_S64x128_S1_S64x64_01_n_1_0.resultIdx? (ix2 a b)
      (broadcastInDim S1 ![] bcast_S_S1 (constantI S_ 32 0#32)) = some (ix2 d (Fin.castLE (by decide) c : Fin 128))
        ↔ (a.val : ℤ) = (d.val : ℤ) ∧ (0 : ℤ) + (b.val : ℤ) = (c.val : ℤ) := fun a b =>
    Cert.LibScatterIdx.block_lands scatter_S64x128_S1_S64x64_01_n_1_0 rfl rfl rfl rfl _ a b d _
  refine Cert.LibSetScatter.scatter_set_hit _ _ _ _ _ (ix2 d c) ((hl d c).mpr ⟨rfl, by omega⟩) fun j' hj' => ?_
  rw [eq_ix2 j'] at hj' ⊢
  obtain ⟨h1, h2⟩ := (hl (j' 0) (j' 1)).mp hj'
  have e0 : j' 0 = d := Fin.ext (by omega)
  have e1 : j' 1 = c := Fin.ext (by omega)
  rw [e0, e1]
  try rfl

/-- The folded weight matrix in columns 0 … 63: the symmetrised matrix. -/
theorem wcOf_quad (W : FVec Ideal S1x2145 .f32) (d c : Fin 64) :
    wcOf W (ix2 d (Fin.castLE (by decide) c : Fin 128)) = sym W (ix2 d c) := by
  unfold wcOf
  refine (Cert.LibSetScatter.scatter_set_miss _ _ _ _ _ fun j' hj' => ?_).trans (wcQuad_apply W d c)
  rw [eq_ix1 j'] at hj'
  have h := (Cert.LibScatterIdx.col_lands scatter_S64x128_S1_S64_0_1_1_0 rfl rfl rfl rfl _ (j' 0) d _).mp hj'
  have h2 : ((64 : ℤ)) = ((Fin.castLE (by decide) c : Fin 128).val : ℤ) := h.2
  have hc : ((Fin.castLE (by decide) c : Fin 128)).val = c.val := rfl
  have := c.isLt
  omega

/-- The folded weight matrix in column 64: the linear weights. -/
theorem wcOf_lin (W : FVec Ideal S1x2145 .f32) (d : Fin 64) :
    wcOf W (ix2 d (64 : Fin 128)) = W (ix2 (0 : Fin 1) ⟨1 + d.val, by omega⟩) := by
  unfold wcOf
  have hl : ∀ a : Fin 64, scatter_S64x128_S1_S64_0_1_1_0.resultIdx? (ix1 a)
      (broadcastInDim S1 ![] bcast_S_S1 (constantI S_ 32 64#32)) = some (ix2 d (64 : Fin 128))
        ↔ (a.val : ℤ) = (d.val : ℤ) ∧ (64 : ℤ) = ((64 : Fin 128).val : ℤ) := fun a =>
    Cert.LibScatterIdx.col_lands scatter_S64x128_S1_S64_0_1_1_0 rfl rfl rfl rfl _ a d _
  refine (Cert.LibSetScatter.scatter_set_hit _ _ _ _ _ (ix1 d) ((hl d).mpr ⟨rfl, rfl⟩) fun j' hj' => ?_).trans (linW_apply W d)
  rw [eq_ix1 j'] at hj' ⊢
  have e0 : j' 0 = d := Fin.ext (by have := ((hl (j' 0)).mp hj').1; omega)
  rw [e0]
  try rfl

/-! ## The folded bias -/

theorem bias_apply (W : FVec Ideal S1x2145 .f32) (b : FVec Ideal S1 .f32) :
    biasOf W b (ix2 (0 : Fin 1) (0 : Fin 1)) = b (ix1 (0 : Fin 1)) + W (ix2 (0 : Fin 1) (0 : Fin 2145)) := by
  unfold biasOf
  have z0 : (S_.rowMajor ix0).val = 0 := by have h : (S_.rowMajor ix0).val < 1 := (S_.rowMajor ix0).isLt; omega
  refine (shapeCast_apply _ shapeCasts_S_S1x1 (ix2 (0 : Fin 1) (0 : Fin 1)) ix0 (by
    rw [z0, Shape.rowMajor_val_two]; rfl)).trans ?_
  rw [addf_apply]
  refine congrArg₂ (· + ·) ?_ ?_
  · exact shapeCast_apply b shapeCasts_S1_S_ ix0 (ix1 (0 : Fin 1)) (by rw [z0, Shape.rowMajor_val_one]; rfl)
  · refine (shapeCast_apply _ shapeCasts_S1_S_ ix0 (ix1 (0 : Fin 1)) (by rw [z0, Shape.rowMajor_val_one]; rfl)).trans ?_
    exact (extractStridedSlice_apply _ _ _ (ix1 (0 : Fin 1)) (ix1 (0 : Fin 2145)) fun a => by
      match a with
      | ⟨0, _⟩ => rfl).trans (wvec_apply W 0)

end Cert.KernelIdeal.HostVal

end
-- ==== Proof.LibEReal.lean ====
/-
  General facts about extended reals, for programs read at exact (extended-real) arithmetic whose values are real numbers
  except for a −∞ a running maximum starts from.

  The operations on coerced reals are the coerced real operations: a finite sum (coe_sum), exp of a difference
  (exp_coe_sub), a quotient by a nonzero real (div_coe_coe), max (max_coe_coe). A maximum folded from −∞ over a nonempty
  finite family of reals is a real (fold_max_real), and max(−∞, c) = c (max_bot_coe). The rescaling factor of a first
  block, exp(−∞ − c), is 0 (exp_bot_sub). The f32 pattern 0xFF800000 is −∞ (ofBits_neg_inf).
-/
import Idealize.ShloMosaic.PureOps.Ideal
import Idealize.ShloMosaic.PureOps.Ideal.Laws

noncomputable section

open scoped BigOperators

namespace Cert.LibEReal

open Idealize.ShloMosaic

/-- A finite sum of coerced reals is the coerced sum. -/
theorem coe_sum {ι : Type} (S : Finset ι) (f : ι → ℝ) : ∑ i ∈ S, ((f i : ℝ) : EReal) = ((∑ i ∈ S, f i : ℝ) : EReal) := by
  classical
  induction S using Finset.induction_on with
  | empty => simp
  | insert a S ha ih => rw [Finset.sum_insert ha, Finset.sum_insert ha, ih, EReal.coe_add]

/-- exp of a difference of reals. -/
theorem exp_coe_sub (a b : ℝ) : Ideal.exp ((a : EReal) - (b : EReal)) = ((Real.exp (a - b) : ℝ) : EReal) := by
  rw [← EReal.coe_sub]; rfl

/-- The first block's rescaling factor: exp(−∞ − c) = 0. -/
theorem exp_bot_sub (b : ℝ) : Ideal.exp ((⊥ : EReal) - (b : EReal)) = 0 := by
  rw [EReal.bot_sub]; rfl

/-- A quotient of reals by a nonzero real. -/
theorem div_coe_coe (a l : ℝ) (hl : l ≠ 0) : Ideal.div (a : EReal) (l : EReal) = ((a / l : ℝ) : EReal) := by
  rw [Ideal.div_coe hl, ← EReal.coe_mul]; congr 1; rw [mul_one_div]

/-- The f32 pattern of −∞ is the bottom element. -/
theorem ofBits_neg_inf : Ideal.ofBits .f32 0xFF800000#32 = (⊥ : EReal) := by simp [Ideal.ofBits, Ideal.ieee]

/-- A maximum folded from −∞ over a nonempty finite family of reals is a real. -/
theorem fold_max_real {ι : Type} [Fintype ι] [Nonempty ι] (f : ι → ℝ) :
    ∃ c : ℝ, (Finset.univ : Finset ι).fold max (⊥ : EReal) (fun k => ((f k : ℝ) : EReal)) = (c : EReal) := by
  have hlt : (Finset.univ : Finset ι).fold max (⊥ : EReal) (fun k => ((f k : ℝ) : EReal)) < ⊤ :=
    (Finset.fold_max_lt ⊤).mpr ⟨bot_lt_top, fun k _ => EReal.coe_lt_top _⟩
  have hgt : (⊥ : EReal) < (Finset.univ : Finset ι).fold max (⊥ : EReal) (fun k => ((f k : ℝ) : EReal)) :=
    (Finset.lt_fold_max ⊥).mpr (Or.inr ⟨Classical.arbitrary ι, Finset.mem_univ _, EReal.bot_lt_coe _⟩)
  exact ⟨_, (EReal.coe_toReal hlt.ne hgt.ne').symm⟩

/-- The running maximum after a block: from −∞ or from a real, against a real block maximum, it is a real. -/
theorem max_bot_coe (c : ℝ) : max (⊥ : EReal) (c : EReal) = (c : EReal) := max_bot_left _
theorem max_coe_coe (a b : ℝ) : max (a : EReal) (b : EReal) = ((max a b : ℝ) : EReal) := (EReal.coe_strictMono.monotone.map_max).symm

end Cert.LibEReal

end
-- ==== Proof.Algebra.lean ====
/-
  The algebra that joins the two programs, over the real numbers.

  The reference sums the 2145 features against the weights.  The kernel folds the quadratic weights into a 64 × 64 matrix:
  it scatters weight 65 + k to position (p k, q k) of a zero matrix U, symmetrises, M = (U + Uᵀ) · ½, and evaluates
  x · w_lin + ∑_c (∑_d x_d M_dc) x_c + (b + w_0).  Writing U(i, j) = ∑_k [p k = i][q k = j] w_{65+k}, the double sum
  ∑_c ∑_d x_d U(d, c) x_c collapses to ∑_k x_{p k} w_{65+k} x_{q k}, and so does the one with U transposed, by
  commutativity; half of their sum is the quadratic part of the reference.  Splitting the reference's sum over 2145
  features into 1 + 64 + 2080 gives the rest.  Everything here is an identity of real polynomials; the extended reals
  enter only through coercions of real numbers.
-/
import Mathlib.Algebra.BigOperators.Fin
import Mathlib.Data.Real.Basic
import Mathlib.Tactic
import proofs.«159901_j3204045603237_1_alg».proof.Proof.Spec
import proofs.«159901_j3204045603237_1_alg».proof.Proof.LibEReal

noncomputable section

namespace Cert.Poly

open Idealize.ShloMosaic

/-- Feature n of a real row. -/
def featR (x : Fin 64 → ℝ) (p q : Fin 2080 → Fin 64) (n : Fin 2145) : ℝ :=
  if _h0 : n.val = 0 then 1
  else if h1 : n.val < 65 then x ⟨n.val - 1, by omega⟩
  else x (p ⟨n.val - 65, by omega⟩) * x (q ⟨n.val - 65, by omega⟩)

/-- On a real row the features are the coerced real features. -/
theorem feat_coe (x : Fin 64 → ℝ) (p q : Fin 2080 → Fin 64) (n : Fin 2145) :
    feat (fun d => ((x d : ℝ) : EReal)) p q n = ((featR x p q n : ℝ) : EReal) := by
  unfold feat featR
  split
  · exact EReal.coe_one.symm
  · split
    · rfl
    · exact (EReal.coe_mul _ _).symm

/-- On real data the model's value is the coerced real value. -/
theorem refVal_coe (x : Fin 64 → ℝ) (w : Fin 2145 → ℝ) (b : ℝ) (p q : Fin 2080 → Fin 64) :
    refVal (fun d => ((x d : ℝ) : EReal)) (fun n => ((w n : ℝ) : EReal)) (b : EReal) p q
      = (((∑ n : Fin 2145, featR x p q n * w n) + b : ℝ) : EReal) := by
  unfold refVal
  simp only [feat_coe, ← EReal.coe_mul, Cert.LibEReal.coe_sum, ← EReal.coe_add]

/-- The scattered matrix: entry (i, j) collects the quadratic weights whose pair is (i, j). -/
def quadU (w : Fin 2145 → ℝ) (p q : Fin 2080 → Fin 64) (i j : Fin 64) : ℝ :=
  ∑ k : Fin 2080, if p k = i then (if q k = j then w ⟨65 + k.val, by omega⟩ else 0) else 0

/-- The kernel's value on a real row. -/
def kernR (x : Fin 64 → ℝ) (w : Fin 2145 → ℝ) (b : ℝ) (p q : Fin 2080 → Fin 64) : ℝ :=
  ((∑ d : Fin 64, x d * w ⟨1 + d.val, by omega⟩)
    + ∑ c : Fin 64, (∑ d : Fin 64, x d * ((quadU w p q d c + quadU w p q c d) * (1 / 2))) * x c) + (b + w 0)

/-- The double sum against the scattered matrix collapses onto the pairs. -/
theorem quad_collapse (x : Fin 64 → ℝ) (w : Fin 2145 → ℝ) (p q : Fin 2080 → Fin 64) :
    ∑ c : Fin 64, ∑ d : Fin 64, x d * quadU w p q d c * x c
      = ∑ k : Fin 2080, x (p k) * w ⟨65 + k.val, by omega⟩ * x (q k) := by
  have e : ∀ c d : Fin 64, x d * quadU w p q d c * x c
      = ∑ k : Fin 2080, if p k = d then (if q k = c then x d * w ⟨65 + k.val, by omega⟩ * x c else 0) else 0 := by
    intro c d
    unfold quadU
    rw [Finset.mul_sum, Finset.sum_mul]
    refine Finset.sum_congr rfl fun k _ => ?_
    split_ifs <;> ring
  simp only [e]
  have s1 : ∀ c : Fin 64, (∑ d : Fin 64, ∑ k : Fin 2080,
        if p k = d then (if q k = c then x d * w ⟨65 + k.val, by omega⟩ * x c else 0) else 0)
      = ∑ k : Fin 2080, if q k = c then x (p k) * w ⟨65 + k.val, by omega⟩ * x c else 0 := by
    intro c
    rw [Finset.sum_comm]
    refine Finset.sum_congr rfl fun k _ => ?_
    rw [Finset.sum_ite_eq, if_pos (Finset.mem_univ _)]
  simp only [s1]
  rw [Finset.sum_comm]
  refine Finset.sum_congr rfl fun k _ => ?_
  rw [Finset.sum_ite_eq, if_pos (Finset.mem_univ _)]

/-- The same with the matrix transposed. -/
theorem quad_collapse_T (x : Fin 64 → ℝ) (w : Fin 2145 → ℝ) (p q : Fin 2080 → Fin 64) :
    ∑ c : Fin 64, ∑ d : Fin 64, x d * quadU w p q c d * x c
      = ∑ k : Fin 2080, x (p k) * w ⟨65 + k.val, by omega⟩ * x (q k) := by
  rw [Finset.sum_comm, ← quad_collapse x w p q]
  refine Finset.sum_congr rfl fun c _ => Finset.sum_congr rfl fun d _ => ?_
  ring

theorem featR_zero (x : Fin 64 → ℝ) (p q : Fin 2080 → Fin 64) : featR x p q 0 = 1 := by
  unfold featR; rw [dif_pos (show ((0 : Fin 2145)).val = 0 from rfl)]

theorem featR_lin (x : Fin 64 → ℝ) (p q : Fin 2080 → Fin 64) (d : Fin 64) :
    featR x p q ⟨1 + d.val, by omega⟩ = x d := by
  unfold featR
  rw [dif_neg (by simp), dif_pos (by simp; omega)]
  exact congrArg x (Fin.ext (by simp))

theorem featR_quad (x : Fin 64 → ℝ) (p q : Fin 2080 → Fin 64) (k : Fin 2080) :
    featR x p q ⟨65 + k.val, by omega⟩ = x (p k) * x (q k) := by
  unfold featR
  rw [dif_neg (by simp), dif_neg (by simp)]
  have hk : (⟨65 + k.val - 65, by omega⟩ : Fin 2080) = k := Fin.ext (by simp)
  simp only [hk]

/-- The reference's sum over the 2145 features, split into the constant, the linear and the quadratic features. -/
theorem ref_split (x : Fin 64 → ℝ) (w : Fin 2145 → ℝ) (p q : Fin 2080 → Fin 64) :
    ∑ n : Fin 2145, featR x p q n * w n
      = w 0 + (∑ d : Fin 64, x d * w ⟨1 + d.val, by omega⟩)
        + ∑ k : Fin 2080, x (p k) * x (q k) * w ⟨65 + k.val, by omega⟩ := by
  have h1 := Fin.sum_univ_add (a := 65) (b := 2080) (fun n : Fin 2145 => featR x p q n * w n)
  have h2 := Fin.sum_univ_add (a := 1) (b := 64) (fun i : Fin 65 => featR x p q (Fin.castAdd 2080 i) * w (Fin.castAdd 2080 i))
  have e0 : featR x p q (Fin.castAdd 2080 (Fin.castAdd 64 (0 : Fin 1))) * w (Fin.castAdd 2080 (Fin.castAdd 64 (0 : Fin 1))) = w 0 := by
    show featR x p q 0 * w 0 = w 0
    rw [featR_zero, one_mul]
  have e1 : ∀ d : Fin 64, featR x p q (Fin.castAdd 2080 (Fin.natAdd 1 d)) * w (Fin.castAdd 2080 (Fin.natAdd 1 d))
      = x d * w ⟨1 + d.val, by omega⟩ := by
    intro d
    show featR x p q ⟨1 + d.val, _⟩ * w ⟨1 + d.val, _⟩ = _
    rw [featR_lin]
  have e2 : ∀ k : Fin 2080, featR x p q (Fin.natAdd 65 k) * w (Fin.natAdd 65 k)
      = x (p k) * x (q k) * w ⟨65 + k.val, by omega⟩ := by
    intro k
    show featR x p q ⟨65 + k.val, _⟩ * w ⟨65 + k.val, _⟩ = _
    rw [featR_quad]
  rw [h1, h2, Fin.sum_univ_one]
  simp only [e0, e1, e2]

/-- THE LAW: the kernel's folded form is the reference's sum of features. -/
theorem kern_eq_ref (x : Fin 64 → ℝ) (w : Fin 2145 → ℝ) (b : ℝ) (p q : Fin 2080 → Fin 64) :
    kernR x w b p q = (∑ n : Fin 2145, featR x p q n * w n) + b := by
  unfold kernR
  rw [ref_split]
  have hq : ∑ c : Fin 64, (∑ d : Fin 64, x d * ((quadU w p q d c + quadU w p q c d) * (1 / 2))) * x c
      = ∑ k : Fin 2080, x (p k) * x (q k) * w ⟨65 + k.val, by omega⟩ := by
    have e : ∀ c : Fin 64, (∑ d : Fin 64, x d * ((quadU w p q d c + quadU w p q c d) * (1 / 2))) * x c
        = (1 / 2) * (∑ d : Fin 64, x d * quadU w p q d c * x c) + (1 / 2) * (∑ d : Fin 64, x d * quadU w p q c d * x c) := by
      intro c
      rw [Finset.sum_mul, Finset.mul_sum, Finset.mul_sum, ← Finset.sum_add_distrib]
      refine Finset.sum_congr rfl fun d _ => ?_
      ring
    simp only [e]
    rw [Finset.sum_add_distrib, ← Finset.mul_sum, ← Finset.mul_sum, quad_collapse, quad_collapse_T]
    rw [← add_mul]
    norm_num
    refine Finset.sum_congr rfl fun k _ => ?_
    ring
  rw [hq]
  ring

end Cert.Poly

end
-- ==== Proof.KernelReal.lean ====
/-
  On real data the kernel's row value is the coerced real value of Algebra.

  With a real weight row, every entry of the folded weight matrix is a real number: column 64 holds the linear weights
  themselves, columns 0 … 63 hold ((U(d, c) + U(c, d)) · ½ with U the real scattered matrix, and the folded bias is
  b + w_0.  The row value, a polynomial in these and in the real row x, is then the coercion of the same polynomial
  over ℝ.  The pattern 0x3F000000 denotes ½.
-/
import proofs.«159901_j3204045603237_1_alg».proof.Proof.HostRead
import proofs.«159901_j3204045603237_1_alg».proof.Proof.Algebra
import proofs.«159901_j3204045603237_1_alg».proof.Proof.KernSpec

noncomputable section

namespace Cert.KernelIdeal.HostVal

open Cert.KernelIdeal Idealize.ShloMosaic Idealize.ShloMosaic.ValueIdx
open Cert.KernelIdeal.Tables Cert.Poly

/-- The pattern of 0.5 denotes the real ½. -/
theorem ofBits_half : Ideal.ofBits .f32 0x3F000000#32 = (((1 / 2 : ℝ)) : EReal) := by
  simp [Ideal.ofBits, Ideal.ieee, -EReal.coe_mul]; norm_num

variable (Wr : S1x2145.Idx → ℝ)

/-- The scattered matrix of a real weight row is the real scattered matrix. -/
theorem upper_coe (i j : Fin 64) :
    upper (fun a => ((Wr a : ℝ) : EReal)) (ix2 i j)
      = ((quadU (fun n => Wr (ix2 (0 : Fin 1) n)) P Q i j : ℝ) : EReal) := by
  rw [upper_apply]
  unfold quadU
  rw [← Cert.LibEReal.coe_sum]
  refine Finset.sum_congr rfl fun k _ => ?_
  by_cases h1 : P k = i
  · by_cases h2 : Q k = j
    · rw [if_pos h1, if_pos h2, if_pos h1, if_pos h2]
    · rw [if_pos h1, if_neg h2, if_pos h1, if_neg h2]; exact EReal.coe_zero.symm
  · rw [if_neg h1, if_neg h1]; exact EReal.coe_zero.symm

/-- THE KERNEL'S ROW VALUE ON REAL DATA is the coerced real value. -/
theorem kernVal_coe (xr : Fin 64 → ℝ) (br : S1.Idx → ℝ) :
    kernVal (fun k => ((xr k : ℝ) : EReal))
        (fun k c => wcOf (fun a => ((Wr a : ℝ) : EReal)) (ix2 k c))
        (biasOf (fun a => ((Wr a : ℝ) : EReal)) (fun a => ((br a : ℝ) : EReal)) (ix2 (0 : Fin 1) (0 : Fin 1)))
      = ((kernR xr (fun n => Wr (ix2 (0 : Fin 1) n)) (br (ix1 (0 : Fin 1))) P Q : ℝ) : EReal) := by
  unfold kernVal kernR
  rw [bias_apply]
  simp only [wcOf_lin, wcOf_quad, sym_apply, upper_coe, ofBits_half]
  simp only [← EReal.coe_mul, ← EReal.coe_add, Cert.LibEReal.coe_sum]

end Cert.KernelIdeal.HostVal

end
-- ==== Proof.RefRun.lean ====
/-
  The reference program's run, read back: its 26 host operations as a list, and the statement that every weakly fair
  execution of the program ends with the result buffer holding the operations' composed function of the three argument
  buffers, the arguments unchanged.  The composed function is named `refOutF` (for any float values) and `refOut`
  (at the ideal values).
-/
import proofs.«159901_j3204045603237_1_alg».proof.Proof.Gen.ReferenceIdeal
import Idealize.ShloMosaic.Lib.StableHlo.Run
import Idealize.ShloMosaic.PureOps.Ideal

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The program's 26 operations, in order. -/
abbrev ops : List (HloOp τ sig (Elt F)) :=
  [
    nullary main_c (fun i => lit0 (S2080.rowMajor i)),
    nullary main_c_0 (constantI S2080 1 0#1),
    nullary main_c_1 (fun i => lit1 (S2080.rowMajor i)),
    nullary main_c_2 (constantI S2080 1 0#1),
    nullary main_cst (constant S_ .f32 0x3F800000#32),
    unary main_cst main_v0 (broadcastInDim S32768x1 ![] bcast_S_S32768x1 : (⟨S_, .f32⟩ : BufTy).Contents (Elt F) → (⟨S32768x1, .f32⟩ : BufTy).Contents (Elt F)),
    nullary main_c_3 (constantI S_ 32 64#32),
    unary main_c_3 main_v1 (broadcastInDim S2080 ![] bcast_S_S2080 : (⟨S_, .i32⟩ : BufTy).Contents (Elt F) → (⟨S2080, .i32⟩ : BufTy).Contents (Elt F)),
    binary main_c main_v1 main_v2 (addi : (⟨S2080, .i32⟩ : BufTy).Contents (Elt F) → (⟨S2080, .i32⟩ : BufTy).Contents (Elt F) → (⟨S2080, .i32⟩ : BufTy).Contents (Elt F)),
    ternary main_c_0 main_v2 main_c main_v3 (select : (⟨S2080, .i1⟩ : BufTy).Contents (Elt F) → (⟨S2080, .i32⟩ : BufTy).Contents (Elt F) → (⟨S2080, .i32⟩ : BufTy).Contents (Elt F) → (⟨S2080, .i32⟩ : BufTy).Contents (Elt F)),
    unary main_v3 main_v4 (broadcastInDim S2080x1 ![0] bcast_S2080_S2080x1_0 : (⟨S2080, .i32⟩ : BufTy).Contents (Elt F) → (⟨S2080x1, .i32⟩ : BufTy).Contents (Elt F)),
    binary main_arg0 main_v4 main_v5 ((fun x i => Host.gather gather_S32768x64_S2080x1_S32768x2080_0_1_n_n_1_1_327681 x i) : (⟨S32768x64, .f32⟩ : BufTy).Contents (Elt F) → (⟨S2080x1, .i32⟩ : BufTy).Contents (Elt F) → (⟨S32768x2080, .f32⟩ : BufTy).Contents (Elt F)),
    nullary main_c_4 (constantI S_ 32 64#32),
    unary main_c_4 main_v6 (broadcastInDim S2080 ![] bcast_S_S2080 : (⟨S_, .i32⟩ : BufTy).Contents (Elt F) → (⟨S2080, .i32⟩ : BufTy).Contents (Elt F)),
    binary main_c_1 main_v6 main_v7 (addi : (⟨S2080, .i32⟩ : BufTy).Contents (Elt F) → (⟨S2080, .i32⟩ : BufTy).Contents (Elt F) → (⟨S2080, .i32⟩ : BufTy).Contents (Elt F)),
    ternary main_c_2 main_v7 main_c_1 main_v8 (select : (⟨S2080, .i1⟩ : BufTy).Contents (Elt F) → (⟨S2080, .i32⟩ : BufTy).Contents (Elt F) → (⟨S2080, .i32⟩ : BufTy).Contents (Elt F) → (⟨S2080, .i32⟩ : BufTy).Contents (Elt F)),
    unary main_v8 main_v9 (broadcastInDim S2080x1 ![0] bcast_S2080_S2080x1_0 : (⟨S2080, .i32⟩ : BufTy).Contents (Elt F) → (⟨S2080x1, .i32⟩ : BufTy).Contents (Elt F)),
    binary main_arg0 main_v9 main_v10 ((fun x i => Host.gather gather_S32768x64_S2080x1_S32768x2080_0_1_n_n_1_1_327681 x i) : (⟨S32768x64, .f32⟩ : BufTy).Contents (Elt F) → (⟨S2080x1, .i32⟩ : BufTy).Contents (Elt F) → (⟨S32768x2080, .f32⟩ : BufTy).Contents (Elt F)),
    binary main_v5 main_v10 main_v11 (mulf : (⟨S32768x2080, .f32⟩ : BufTy).Contents (Elt F) → (⟨S32768x2080, .f32⟩ : BufTy).Contents (Elt F) → (⟨S32768x2080, .f32⟩ : BufTy).Contents (Elt F)),
    nary ![main_v0, main_arg0, main_v11] main_v12 (fun u => concatenate S32768x2145 1 [⟨S32768x1, u 0⟩, ⟨S32768x64, u 1⟩, ⟨S32768x2080, u 2⟩] concatenates_S32768x1_S32768x64_S32768x2080_S32768x2145_d1),
    unary main_arg1 main_v13 ((transpose S2145x1 [1, 0] · transposes_S1x2145_S2145x1_1_0) : (⟨S1x2145, .f32⟩ : BufTy).Contents (Elt F) → (⟨S2145x1, .f32⟩ : BufTy).Contents (Elt F)),
    binary main_v12 main_v13 main_v14 ((fun l r => Host.dotGeneral dot_S32768x2145_S2145x1_S32768x1_1_0_0_1_n_n none l r) : (⟨S32768x2145, .f32⟩ : BufTy).Contents (Elt F) → (⟨S2145x1, .f32⟩ : BufTy).Contents (Elt F) → (⟨S32768x1, .f32⟩ : BufTy).Contents (Elt F)),
    unary main_arg2 main_v15 (broadcastInDim S1x1 ![1] bcast_S1_S1x1_1 : (⟨S1, .f32⟩ : BufTy).Contents (Elt F) → (⟨S1x1, .f32⟩ : BufTy).Contents (Elt F)),
    unary main_v15 main_v16 (broadcastInDim S32768x1 ![0, 1] bcast_S1x1_S32768x1_0_1 : (⟨S1x1, .f32⟩ : BufTy).Contents (Elt F) → (⟨S32768x1, .f32⟩ : BufTy).Contents (Elt F)),
    binary main_v14 main_v16 main_v17 (addf : (⟨S32768x1, .f32⟩ : BufTy).Contents (Elt F) → (⟨S32768x1, .f32⟩ : BufTy).Contents (Elt F) → (⟨S32768x1, .f32⟩ : BufTy).Contents (Elt F)),
    reshape main_v17 main_v18 rfl shapeCasts_S32768x1_S32768 ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., nullary_bufs_sub .., nullary_bufs_sub .., nullary_bufs_sub .., nullary_bufs_sub .., unary_bufs_sub .., nullary_bufs_sub .., unary_bufs_sub .., binary_bufs_sub .., ternary_bufs_sub .., unary_bufs_sub .., binary_bufs_sub .., nullary_bufs_sub .., unary_bufs_sub .., binary_bufs_sub .., ternary_bufs_sub .., unary_bufs_sub .., binary_bufs_sub .., binary_bufs_sub .., nary_bufs_sub .., unary_bufs_sub .., binary_bufs_sub .., unary_bufs_sub .., unary_bufs_sub .., binary_bufs_sub .., reshape_bufs_sub ..⟩

/-- An operation of three operands, listed literally, leaves in its result buffer its function of the three operands'
    contents, each read at its own buffer. -/
theorem nary3_result {Val : EltTy → Type} {x a b y : Ref sig .tc}
    (f : ((k : Fin 3) → ((![x, a, b] : Fin 3 → Ref sig .tc) k).ty.Contents Val) → y.ty.Contents Val) (hxs hy)
    (V : Valuation τ sig Val) :
    (nary (τ := τ) ![x, a, b] y f hxs hy).result V (Proc.devRef .tc y)
      = f (Fin.cons (V (Proc.devRef .tc x)) (Fin.cons (V (Proc.devRef .tc a)) (Fin.cons (V (Proc.devRef .tc b)) (fun i => i.elim0)))) := by
  rw [nary_result]; congr 1; funext k; fin_cases k <;> rfl

/-- The composed function of the program's operations: the result as a function of the three arguments, for any
    float values. -/
def refOutF (x : FVec F S32768x64 .f32) (W : FVec F S1x2145 .f32) (b : FVec F S1 .f32) : FVec F S32768 .f32 :=
  shapeCast S32768
    (addf
      (Host.dotGeneral dot_S32768x2145_S2145x1_S32768x1_1_0_0_1_n_n none
        (concatenate S32768x2145 1
          [⟨S32768x1, broadcastInDim S32768x1 ![] bcast_S_S32768x1 (constant S_ .f32 0x3F800000#32)⟩,
           ⟨S32768x64, x⟩,
           ⟨S32768x2080, mulf
              (Host.gather gather_S32768x64_S2080x1_S32768x2080_0_1_n_n_1_1_327681 x (broadcastInDim S2080x1 ![0] bcast_S2080_S2080x1_0 (select (constantI S2080 1 0#1) (addi (fun i => lit0 (S2080.rowMajor i)) (broadcastInDim S2080 ![] bcast_S_S2080 (constantI S_ 32 64#32))) (fun i => lit0 (S2080.rowMajor i)))))
              (Host.gather gather_S32768x64_S2080x1_S32768x2080_0_1_n_n_1_1_327681 x (broadcastInDim S2080x1 ![0] bcast_S2080_S2080x1_0 (select (constantI S2080 1 0#1) (addi (fun i => lit1 (S2080.rowMajor i)) (broadcastInDim S2080 ![] bcast_S_S2080 (constantI S_ 32 64#32))) (fun i => lit1 (S2080.rowMajor i)))))⟩]
          concatenates_S32768x1_S32768x64_S32768x2080_S32768x2145_d1)
        (transpose S2145x1 [1, 0] W transposes_S1x2145_S2145x1_1_0))
      (broadcastInDim S32768x1 ![0, 1] bcast_S1x1_S32768x1_0_1 (broadcastInDim S1x1 ![1] bcast_S1_S1x1_1 b)))
    shapeCasts_S32768x1_S32768

/-- Reduces a goal `after ops V (Proc.devRef .tc r) = …` over the literal list of operations to the operations'
    functions applied to the launch contents: each operation's result at its own result buffer is its function's
    value, at any other buffer what was there. -/
macro "after_results3" : tactic =>
  `(tactic| (simp only [after_cons, after_nil]
             repeat (first
               | rw [nullary_result] | rw [unary_result] | rw [binary_result] | rw [ternary_result]
               | rw [reshape_result] | rw [nary3_result]
               | (rw [nullary_result_ne]; rotate_left; decide)
               | (rw [unary_result_ne]; rotate_left; decide)
               | (rw [binary_result_ne]; rotate_left; decide)
               | (rw [ternary_result_ne]; rotate_left; decide)
               | (rw [reshape_result_ne]; rotate_left; decide)
               | (rw [nary_result_ne]; rotate_left; decide))))

section After
variable (V : Valuation τ sig (Elt F))

set_option maxHeartbeats 4000000 in
/-- After the 26 operations the result buffer holds the composed function of the three argument buffers' contents. -/
theorem after_v18 :
    after (ops (F := F)) V (Proc.devRef .tc main_v18)
      = refOutF (V (Proc.devRef .tc main_arg0)) (V (Proc.devRef .tc main_arg1)) (V (Proc.devRef .tc main_arg2)) := by
  after_results3
  rfl

set_option maxHeartbeats 4000000 in
/-- No operation writes the first argument. -/
theorem after_arg0 : after (ops (F := F)) V (Proc.devRef .tc main_arg0) = V (Proc.devRef .tc main_arg0) := by
  after_results3

set_option maxHeartbeats 4000000 in
/-- No operation writes the second argument. -/
theorem after_arg1 : after (ops (F := F)) V (Proc.devRef .tc main_arg1) = V (Proc.devRef .tc main_arg1) := by
  after_results3

set_option maxHeartbeats 4000000 in
/-- No operation writes the third argument. -/
theorem after_arg2 : after (ops (F := F)) V (Proc.devRef .tc main_arg2) = V (Proc.devRef .tc main_arg2) := by
  after_results3

end After

/-- On every device, for any float values, from any memory with zero counters: every weakly fair execution of the
    program terminates with the result at the composed function of the arguments and the arguments unchanged. -/
theorem runF (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v18) = refOutF (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v18).trans (after_v18 _),
      (h c main_arg0).trans (after_arg0 _),
      (h c main_arg1).trans (after_arg1 _),
      (h c main_arg2).trans (after_arg2 _)⟩)
    (run_seq scopedRefs_eq scopedSems_eq defs main (fun _ => ops) main_eq (fun _ => ops_sub) m ρ)

/-- The composed function at the ideal values. -/
def refOut (x : FVec Ideal S32768x64 .f32) (W : FVec Ideal S1x2145 .f32) (b : FVec Ideal S1 .f32) : FVec Ideal S32768 .f32 :=
  refOutF (F := Ideal) x W b

/-- The run at the ideal values. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v18) = refOut (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  runF (F := Ideal) m ρ

end Cert.ReferenceIdeal.RefValue

end
-- ==== Proof.RefValue.lean ====
/-
  The reference program's result read at one row of the batch: the degree-2 polynomial model's value on that row.
  The composed function of the program's operations is read operation by operation — the reshape, the sum with the
  broadcast bias, the matrix product as a sum over the 2145 features, the transposed weights, the three-piece
  concatenation (the constant one, the 64 coordinates, the 2080 products), and the two column gathers at the two
  index tables.
-/
import Idealize.ShloMosaic.Lib.ValueIdx
import Idealize.ShloMosaic.Lib.IdealHost
import Idealize.ShloMosaic.Lib.StackMember
import Idealize.ShloMosaic.Lib.Pipeline.Value
import proofs.«159901_j3204045603237_1_alg».proof.Proof.Spec
import proofs.«159901_j3204045603237_1_alg».proof.Proof.RefRun

noncomputable section

namespace Cert.ReferenceIdeal.RefValue

open Cert.ReferenceIdeal Cert.ReferenceIdeal.Gen Idealize.ShloMosaic Idealize.ShloMosaic.ValueIdx

/-- The column gather read at row r and column k: the operand's row r at the column the k-th start index names,
    that index read as a signed integer and clamped into [0, 63]. -/
theorem gather_cols_apply {α : Type} (x : S32768x64.Idx → α) (idx : IVec S2080x1 32) (r : Fin 32768) (k : Fin 2080) :
    Host.gather gather_S32768x64_S2080x1_S32768x2080_0_1_n_n_1_1_327681 x idx (ix2 r k)
      = x (ix2 r (Cert.Poly.clampCol (idx (ix2 k (0 : Fin 1))))) := by
  unfold Host.gather
  congr 1
  funext a
  refine Fin.ext ?_
  match a with
  | ⟨0, _⟩ =>
    show GatherDims.start gather_S32768x64_S2080x1_S32768x2080_0_1_n_n_1_1_327681 (ix2 r k) idx 0 + GatherDims.batchCoord gather_S32768x64_S2080x1_S32768x2080_0_1_n_n_1_1_327681 (ix2 r k) 0
        + GatherDims.offCoord gather_S32768x64_S2080x1_S32768x2080_0_1_n_n_1_1_327681 (ix2 r k) 0 = r.val
    rw [GatherDims.batchCoord_eq_zero _ _ _ List.not_mem_nil]
    unfold GatherDims.start
    rw [dif_neg (by decide)]
    unfold GatherDims.offCoord
    rw [dif_pos (by decide)]
    simp only [Nat.add_zero, Nat.zero_add]
    rfl
  | ⟨1, _⟩ =>
    show GatherDims.start gather_S32768x64_S2080x1_S32768x2080_0_1_n_n_1_1_327681 (ix2 r k) idx 1 + GatherDims.batchCoord gather_S32768x64_S2080x1_S32768x2080_0_1_n_n_1_1_327681 (ix2 r k) 1
        + GatherDims.offCoord gather_S32768x64_S2080x1_S32768x2080_0_1_n_n_1_1_327681 (ix2 r k) 1 = (Cert.Poly.clampCol (idx (ix2 k (0 : Fin 1)))).val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (gather_S32768x64_S2080x1_S32768x2080_0_1_n_n_1_1_327681).startIndexMap from List.mem_singleton.mpr rfl)]
    have hsi : GatherDims.siIdx gather_S32768x64_S2080x1_S32768x2080_0_1_n_n_1_1_327681 (ix2 r k) ⟨List.idxOf (1 : Fin 2) (gather_S32768x64_S2080x1_S32768x2080_0_1_n_n_1_1_327681).startIndexMap,
        List.idxOf_lt_length_iff.2 (List.mem_singleton.mpr rfl)⟩ = ix2 k (0 : Fin 1) := by
      funext b; refine Fin.ext ?_
      match b with
      | ⟨0, _⟩ => rfl
      | ⟨1, _⟩ => rfl
    rw [hsi]
    rfl

/-- A table of 2080 index words, as the program prepares it for the gather — 64 added where a mask that is
    everywhere false says so, then a unit axis appended — read at entry k: the table's k-th word. -/
theorem idx_apply (lit : Fin 2080 → BitVec 32) (k : Fin 2080) :
    broadcastInDim S2080x1 ![0] bcast_S2080_S2080x1_0
      (select (constantI S2080 1 0#1)
        (addi (fun i => lit (S2080.rowMajor i)) (broadcastInDim S2080 ![] bcast_S_S2080 (constantI S_ 32 64#32)))
        (fun i => lit (S2080.rowMajor i)))
      (ix2 k (0 : Fin 1)) = lit k := by
  refine (broadcastInDim_apply _ _ _ (ix2 k (0 : Fin 1)) (ix1 k) ?_).trans ?_
  · intro a
    match a with
    | ⟨0, _⟩ => rfl
  · show Scalar.select (0#1) _ (lit (S2080.rowMajor (ix1 k))) = lit k
    rw [select_zero]
    exact congrArg lit (Fin.ext (Shape.rowMajor_val_one _))

/-- The bias, broadcast to a column, read at row r: the bias. -/
theorem bias_apply (b : FVec Ideal S1 .f32) (r : Fin 32768) :
    broadcastInDim S32768x1 ![0, 1] bcast_S1x1_S32768x1_0_1 (broadcastInDim S1x1 ![1] bcast_S1_S1x1_1 b) (ix2 r (0 : Fin 1))
      = b (ix1 (0 : Fin 1)) := by
  refine (broadcastInDim_apply _ _ _ (ix2 r (0 : Fin 1)) (ix2 (0 : Fin 1) (0 : Fin 1)) ?_).trans ?_
  · intro a
    match a with
    | ⟨0, _⟩ => rfl
    | ⟨1, _⟩ => rfl
  · refine broadcastInDim_apply _ _ _ _ (ix1 (0 : Fin 1)) ?_
    intro a
    match a with
    | ⟨0, _⟩ => rfl

/-- The transposed weight row read at (n, 0): the weight row's n-th entry. -/
theorem wT_apply (W : FVec Ideal S1x2145 .f32) (n : Fin 2145) :
    transpose S2145x1 [1, 0] W transposes_S1x2145_S2145x1_1_0 (ix2 n (0 : Fin 1)) = W (ix2 (0 : Fin 1) n) := by
  refine transpose_apply _ _ _ _ (ix2 (0 : Fin 1) n) ?_
  intro b
  match b with
  | ⟨0, _⟩ => rfl
  | ⟨1, _⟩ => rfl

/-- The feature matrix: the constant one, the 64 coordinates and the 2080 products, side by side. -/
def feats (x : FVec Ideal S32768x64 .f32) : FVec Ideal S32768x2145 .f32 :=
  concatenate S32768x2145 1
    [⟨S32768x1, broadcastInDim S32768x1 ![] bcast_S_S32768x1 (constant S_ .f32 0x3F800000#32)⟩,
     ⟨S32768x64, x⟩,
     ⟨S32768x2080, mulf
        (Host.gather gather_S32768x64_S2080x1_S32768x2080_0_1_n_n_1_1_327681 x (broadcastInDim S2080x1 ![0] bcast_S2080_S2080x1_0 (select (constantI S2080 1 0#1) (addi (fun i => lit0 (S2080.rowMajor i)) (broadcastInDim S2080 ![] bcast_S_S2080 (constantI S_ 32 64#32))) (fun i => lit0 (S2080.rowMajor i)))))
        (Host.gather gather_S32768x64_S2080x1_S32768x2080_0_1_n_n_1_1_327681 x (broadcastInDim S2080x1 ![0] bcast_S2080_S2080x1_0 (select (constantI S2080 1 0#1) (addi (fun i => lit1 (S2080.rowMajor i)) (broadcastInDim S2080 ![] bcast_S_S2080 (constantI S_ 32 64#32))) (fun i => lit1 (S2080.rowMajor i)))))⟩]
    concatenates_S32768x1_S32768x64_S32768x2080_S32768x2145_d1

/-- The feature matrix read at row r and column n: feature n of row r. -/
theorem feats_apply (x : FVec Ideal S32768x64 .f32) (r : Fin 32768) (n : Fin 2145) :
    feats x (ix2 r n)
      = Cert.Poly.feat (fun d => x (ix2 r d)) (fun k => Cert.Poly.clampCol (lit0 k)) (fun k => Cert.Poly.clampCol (lit1 k)) n := by
  unfold feats Cert.Poly.feat
  by_cases h0 : n.val = 0
  · rw [dif_pos h0]
    refine (concatenate_apply_piece _ _ _ (ix2 r n) 0 (by simp) S32768x1 _ rfl rfl 0 rfl (ix2 r (0 : Fin 1)) ?_ ?_).trans ?_
    · intro b hb
      match b with
      | ⟨0, _⟩ => rfl
      | ⟨1, _⟩ => exact absurd rfl hb
    · show 0 + 0 = n.val
      omega
    · refine (broadcastInDim_scalar_apply _ _ _).trans ?_
      rw [constant_apply]
      exact Ideal.ofBits_one_f32
  · rw [dif_neg h0]
    by_cases h1 : n.val < 65
    · rw [dif_pos h1]
      refine concatenate_apply_piece _ _ _ (ix2 r n) 1 (by simp) S32768x64 x rfl rfl 1 rfl
        (ix2 r (⟨n.val - 1, by omega⟩ : Fin 64)) ?_ ?_
      · intro b hb
        match b with
        | ⟨0, _⟩ => rfl
        | ⟨1, _⟩ => exact absurd rfl hb
      · show 1 + (n.val - 1) = n.val
        omega
    · rw [dif_neg h1]
      refine (concatenate_apply_piece _ _ _ (ix2 r n) 2 (by simp) S32768x2080 _ rfl rfl 65 rfl
        (ix2 r (⟨n.val - 65, by omega⟩ : Fin 2080)) ?_ ?_).trans ?_
      · intro b hb
        match b with
        | ⟨0, _⟩ => rfl
        | ⟨1, _⟩ => exact absurd rfl hb
      · show 65 + (n.val - 65) = n.val
        omega
      · rw [mulf_apply, gather_cols_apply, gather_cols_apply, idx_apply lit0, idx_apply lit1]

/-- The program's result at row r of the batch: the polynomial model's value on that row, the quadratic features'
    coordinate pairs read off the two index tables, each word clamped into [0, 63]. -/
theorem refOut_apply (x : FVec Ideal S32768x64 .f32) (W : FVec Ideal S1x2145 .f32) (b : FVec Ideal S1 .f32) (r : Fin 32768) :
    refOut x W b (ValueIdx.ix1 r) = Cert.Poly.refVal (fun d => x (ValueIdx.ix2 r d)) (fun n => W (ValueIdx.ix2 (0 : Fin 1) n)) (b (ValueIdx.ix1 (0 : Fin 1)))
      (fun k => Cert.Poly.clampCol (lit0 k)) (fun k => Cert.Poly.clampCol (lit1 k)) := by
  show shapeCast S32768
      (addf (Host.dotGeneral dot_S32768x2145_S2145x1_S32768x1_1_0_0_1_n_n none (feats x)
          (transpose S2145x1 [1, 0] W transposes_S1x2145_S2145x1_1_0))
        (broadcastInDim S32768x1 ![0, 1] bcast_S1x1_S32768x1_0_1 (broadcastInDim S1x1 ![1] bcast_S1_S1x1_1 b)))
      shapeCasts_S32768x1_S32768 (ix1 r) = _
  refine (shapeCast_apply _ _ (ix1 r) (ix2 r (0 : Fin 1)) ?_).trans ?_
  · rw [Shape.rowMajor_val_two, Shape.rowMajor_val_one]
    show r.val * 1 + 0 = r.val
    omega
  rw [addf_apply, bias_apply]
  unfold Cert.Poly.refVal
  congr 1
  refine (StackMember.dotGeneral_plain_apply none (feats x) _ r (0 : Fin 1)).trans ?_
  refine Finset.sum_congr rfl fun n _ => ?_
  rw [feats_apply, wT_apply]

end Cert.ReferenceIdeal.RefValue

end
-- ==== Proof.Finite.lean ====
/-
  What the precondition says of the three inputs.  The precondition is the conjunction of three statements
  "every entry a of the array has |a| < +∞", one per input; at the ideal values an entry is an extended real, and
  |a| < +∞ holds exactly when a is a real number.  So, under the precondition, each input is an array of reals.
-/
import proofs.«159901_j3204045603237_1_alg».proof.Pre_finite_inputs
import Idealize.ShloMosaic.PureOps.Ideal
import Idealize.ShloMosaic.Lib.ReduceAll
import Idealize.ShloMosaic.Lib.ValueIdx
import Idealize.ShloMosaic.Lib.Affine

noncomputable section

namespace Cert.Finite

open Idealize.ShloMosaic Idealize.ShloMosaic.ValueIdx Cert.Pre_finite_inputs

/-- The scalar shape has one index. -/
instance : Subsingleton S_.Idx := ⟨fun _ _ => funext fun d => d.elim0⟩

/-- An extended real whose absolute value is below +∞ (the comparison coming out true) is a real number. -/
theorem real_of_abs_lt_top (e : EReal)
    (h : FloatOps.cmpf (F := Ideal) (φ := .f32) .olt (FloatOps.hostAbsf (F := Ideal) (φ := .f32) e)
      (FloatOps.ofBits (F := Ideal) .f32 0x7F800000#32) = 1#1) :
    ∃ r : ℝ, e = (r : EReal) := by
  have htop : Ideal.ofBits .f32 0x7F800000#32 = ⊤ := by simp [Ideal.ofBits, Ideal.ieee]
  change Ideal.cmp .olt (max (e : EReal) (-(e : EReal))) (Ideal.ofBits .f32 0x7F800000#32) = 1#1 at h
  rw [htop] at h
  unfold Ideal.cmp at h
  induction e using EReal.rec with
  | bot => simp at h
  | coe r => exact ⟨r, rfl⟩
  | top => simp at h

/-- An array every entry of which has absolute value below +∞ is an array of real numbers. -/
theorem real_of_all {s : Shape} (hb : S_.BroadcastsInDim s (![] : Fin 0 → Fin s.rank)) (v : FVec Ideal s .f32)
    (hall : ∀ i, cmpf .olt (Host.absf v) (broadcastInDim s ![] hb (constant S_ .f32 0x7F800000#32)) i = 1#1) :
    ∃ vr : s.Idx → ℝ, v = fun i => ((vr i : ℝ) : EReal) := by
  have hr : ∀ i, ∃ r : ℝ, v i = (r : EReal) := fun i => real_of_abs_lt_top (v i) (hall i)
  choose vr hvr using hr
  exact ⟨vr, funext hvr⟩

/-- Under the precondition the three inputs are arrays of real numbers. -/
theorem real_of_pre [Cert.Pre_finite_inputs.Facts] (x : FVec Ideal Cert.Pre_finite_inputs.S32768x64 .f32) (W : FVec Ideal Cert.Pre_finite_inputs.S1x2145 .f32) (b : FVec Ideal Cert.Pre_finite_inputs.S1 .f32) (h : Cert.Pre_finite_inputs.fn (F := Ideal) x W b = fun _ => 1#1) :
    (∃ xr : Cert.Pre_finite_inputs.S32768x64.Idx → ℝ, x = fun i => ((xr i : ℝ) : EReal)) ∧ (∃ wr : Cert.Pre_finite_inputs.S1x2145.Idx → ℝ, W = fun i => ((wr i : ℝ) : EReal)) ∧ (∃ br : Cert.Pre_finite_inputs.S1.Idx → ℝ, b = fun i => ((br i : ℝ) : EReal)) := by
  have h0 : Cert.Pre_finite_inputs.fn (F := Ideal) x W b ix0 = 1#1 := congrFun h ix0
  obtain ⟨h12, h3⟩ := IntOp.andi_eq_one.1 h0
  obtain ⟨h1, h2⟩ := IntOp.andi_eq_one.1 h12
  exact ⟨real_of_all _ x fun i => Host.reduce_andi_all _ _ _ _ ix0 h1 i,
    real_of_all _ W fun i => Host.reduce_andi_all _ _ _ _ ix0 h2 i,
    real_of_all _ b fun i => Host.reduce_andi_all _ _ _ _ ix0 h3 i⟩

end Cert.Finite

end
-- ==== Proof.Bridge.lean ====
/-
  The two programs' results are one function of the arguments, when the arguments are finite.

  At row r the reference's result is the sum of the 2145 features of row r of x against the weights, plus the bias; the
  kernel program's result is the folded form x · w_lin + xᵀ M x + (b + w_0).  Finite arguments are real numbers, both
  values are then coercions of real polynomials, and the two polynomials are equal (Algebra).  The two programs print the
  same two index tables; that is checked entry by entry.
-/
import proofs.«159901_j3204045603237_1_alg».proof.Proof.KernelValue
import proofs.«159901_j3204045603237_1_alg».proof.Proof.KernelReal
import proofs.«159901_j3204045603237_1_alg».proof.Proof.RefValue
import proofs.«159901_j3204045603237_1_alg».proof.Proof.Finite
import proofs.«159901_j3204045603237_1_alg».proof.Proof.Algebra

noncomputable section

namespace Cert.Bridge

open Idealize.ShloMosaic Idealize.ShloMosaic.ValueIdx

set_option maxRecDepth 100000 in
/-- The reference prints the same first index table as the kernel program. -/
theorem lit0_eq : ∀ k : Fin 2080, Cert.ReferenceIdeal.lit0 k = Cert.KernelIdeal.lit0 k := by decide +kernel

set_option maxRecDepth 100000 in
/-- And the same second one. -/
theorem lit1_eq : ∀ k : Fin 2080, Cert.ReferenceIdeal.lit1 k = Cert.KernelIdeal.lit1 k := by decide +kernel

/-- The kernel program's result at row r: the row value of row r of x. -/
theorem kernOut_apply (x : FVec Ideal Cert.KernelIdeal.S32768x64 .f32) (W : FVec Ideal Cert.KernelIdeal.S1x2145 .f32)
    (b : FVec Ideal Cert.KernelIdeal.S1 .f32) (r : Fin 32768) :
    Cert.KernelIdeal.KVal.kernOut x W b (ix1 r)
      = Cert.Poly.kernVal (fun k => x (ix2 r k)) (fun k c => Cert.KernelIdeal.HostVal.wcOf W (ix2 k c))
          (Cert.KernelIdeal.HostVal.biasOf W b (ix2 (0 : Fin 1) (0 : Fin 1))) := by
  unfold Cert.KernelIdeal.KVal.kernOut
  refine (shapeCast_apply _ Cert.KernelIdeal.Facts₀.shapeCasts_S32768x1_S32768 (ix1 r) (ix2 r (0 : Fin 1)) ?_).trans rfl
  rw [Shape.rowMajor_val_two, Shape.rowMajor_val_one]
  show r.val * 1 + 0 = r.val
  omega

/-- THE BRIDGE: on finite arguments the reference's result is the kernel program's. -/
theorem result_eq [Cert.Pre_finite_inputs.Facts] (x : FVec Ideal Cert.KernelIdeal.S32768x64 .f32)
    (W : FVec Ideal Cert.KernelIdeal.S1x2145 .f32) (b : FVec Ideal Cert.KernelIdeal.S1 .f32)
    (h : Cert.Pre_finite_inputs.fn (F := Ideal) x W b = fun _ => 1#1) :
    Cert.ReferenceIdeal.RefValue.refOut x W b = Cert.KernelIdeal.KVal.kernOut x W b := by
  obtain ⟨⟨xr, rfl⟩, ⟨Wr, rfl⟩, ⟨br, rfl⟩⟩ := Cert.Finite.real_of_pre x W b h
  funext i
  obtain ⟨r, rfl⟩ : ∃ r : Fin 32768, i = ix1 r := ⟨i 0, eq_ix1 i⟩
  rw [Cert.ReferenceIdeal.RefValue.refOut_apply, kernOut_apply]
  have hP : (fun k => Cert.Poly.clampCol (Cert.ReferenceIdeal.lit0 k)) = Cert.KernelIdeal.Tables.P :=
    funext fun k => congrArg Cert.Poly.clampCol (lit0_eq k)
  have hQ : (fun k => Cert.Poly.clampCol (Cert.ReferenceIdeal.lit1 k)) = Cert.KernelIdeal.Tables.Q :=
    funext fun k => congrArg Cert.Poly.clampCol (lit1_eq k)
  rw [hP, hQ]
  rw [Cert.Poly.refVal_coe (fun d => xr (ix2 r d)) (fun n => Wr (ix2 (0 : Fin 1) n)) (br (ix1 (0 : Fin 1)))]
  rw [Cert.KernelIdeal.HostVal.kernVal_coe Wr (fun k => xr (ix2 r k)) br]
  exact congrArg _ (Cert.Poly.kern_eq_ref _ _ _ _ _).symm

end Cert.Bridge

end
-- ==== Proof.lean ====
/-
  The certificate of a degree-2 polynomial model: out[r] = b + ∑_n w_n · feature_n(x_r), the 2145 features of a row being
  1, the 64 coordinates, and the 2080 products x_i x_j with i ≤ j.

  The reference builds the features and contracts them with the weights.  The kernel program folds the quadratic
  weights into a symmetric 64 × 64 matrix M on the host, puts M and the linear weights side by side in one 64 × 128
  matrix, and per block of 4096 rows computes x · (M | w_lin), then xᵀ M x as a row sum, adds the linear column and the
  folded bias b + w_0.  Over the real numbers the two are the same polynomial; at the infinities the distributive law
  used to unfold xᵀ M x fails, so the precondition (all inputs finite) is used.

  The three frames: the kernel programs' are the generated frame runs; the reference's is its run with the result
  dropped.  The idealisation rewrote nothing.  The value claim: both runs end at one function of the arguments (Bridge).
-/
import proofs.«159901_j3204045603237_1_alg».proof.Defs
import proofs.«159901_j3204045603237_1_alg».proof.Proof.Gen.Kernel
import proofs.«159901_j3204045603237_1_alg».proof.Proof.Gen.Kernel.Skeleton
import proofs.«159901_j3204045603237_1_alg».proof.Proof.Gen.Kernel.Launch
import proofs.«159901_j3204045603237_1_alg».proof.Proof.Gen.Kernel.Points
import proofs.«159901_j3204045603237_1_alg».proof.Proof.Gen.Kernel.Frame
import proofs.«159901_j3204045603237_1_alg».proof.Proof.Gen.KernelIdeal
import proofs.«159901_j3204045603237_1_alg».proof.Proof.Gen.KernelIdeal.Skeleton
import proofs.«159901_j3204045603237_1_alg».proof.Proof.Gen.KernelIdeal.Launch
import proofs.«159901_j3204045603237_1_alg».proof.Proof.Gen.KernelIdeal.Points
import proofs.«159901_j3204045603237_1_alg».proof.Proof.Gen.KernelIdeal.Frame
import proofs.«159901_j3204045603237_1_alg».proof.Proof.Gen.ReferenceIdeal
import proofs.«159901_j3204045603237_1_alg».proof.Proof.Gen.Pre_finite_inputs
import proofs.«159901_j3204045603237_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the result dropped. -/
theorem frame_ri : Cert.frame_ReferenceIdeal := fun m ρ _ =>
  (θ_run Cert.ReferenceIdeal.defs _ _).mono (fun _ h c => (h c).2) (Cert.ReferenceIdeal.RefValue.run m ρ)

/-- The idealisation rewrote no operation. -/
theorem preserves : Cert.preserves_Kernel_KernelIdeal := trivial

/-- Both runs end at one function of the arguments: the kernel program's run, the reference's run, the arguments'
    agreement, and the bridge under the precondition. -/
theorem algebraic : Cert.algebraic_KernelIdeal_ReferenceIdeal := by
  intro m ρ m' ρ' hpre hagree
  refine ⟨_, Cert.KernelIdeal.KVal.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2]
  exact Cert.Bridge.result_eq _ _ _ (hpre c)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
